-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_norm_sq" .f32 0x179ABE15#32 ((5316911940649 / 5316911983139663491615228241121378304 : ℝ) : EReal)
  ∧ IdealRules.named_const.Statement Cert.KernelIdeal.κ "eps_norm_sq" .f32 0x179ABE15#32 ((5316911940649 / 5316911983139663491615228241121378304 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "eps_norm_sq" .f32 0x179ABE15#32 ((5316911940649 / 5316911983139663491615228241121378304 : ℝ) : EReal)
  ∧ IdealRules.named_const.Statement Cert.KernelIdeal.κ "neg_fill_scaled" .f32 0xCF9502F9#32 ((-67108864000000000 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S3x4096x512 : Shape := ⟨3, ![3, 4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S3x4096x512 : S_.BroadcastsInDim S3x4096x512 (![] : Fin 0 → Fin S3x4096x512.rank)
  reducesTo_S3x4096x512_S_d0_1_2 : S3x4096x512.ReducesTo [0, 1, 2] S_

variable [Facts]

def fn {F : FTy → Type} [FloatOps F] (main_arg0 : FVec F S4096x512 .f32) (main_arg1 : FVec F S4096x512 .f32) (main_arg2 : FVec F S3x4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S3x4096x512 .f32 := Host.absf main_arg2
  let main_cst_2 : FVec F S_ .f32 := constant S_ .f32 0x7F800000#32
  let main_v10 : FVec F S3x4096x512 .f32 := broadcastInDim S3x4096x512 ![] bcast_S_S3x4096x512 main_cst_2
  let main_v11 : IVec S3x4096x512 1 := cmpf .olt main_v9 main_v10
  let main_c_3 : IVec S_ 1 := constantI S_ 1 1#1
  let main_v12 : IVec S_ 1 := (fun x v => Host.reduce IntOp.andi x v reducesTo_S3x4096x512_S_d0_1_2 h_S_) main_v11 main_c_3
  let main_v13 : IVec S_ 1 := andi main_v8 main_v12
  main_v13
-- ==== Kernel.lean ====
abbrev S4096x512 : Shape := ⟨2, ![4096, 512]⟩
abbrev S3x4096x512 : Shape := ⟨3, ![3, 4096, 512]⟩
abbrev S12288x512 : Shape := ⟨2, ![12288, 512]⟩
abbrev S4096x1 : Shape := ⟨2, ![4096, 1]⟩
abbrev S1024x512 : Shape := ⟨2, ![1024, 512]⟩
abbrev S1024x1 : Shape := ⟨2, ![1024, 1]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S3x4096x512, .f32⟩
  | .hbm, ⟨3, _⟩ => ⟨S12288x512, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x512, .bf16⟩
  | .local _ .vmem, ⟨11, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c11_i32 : BitVec 32 := 11#32
  let v48 : BitVec 1 := Scalar.cmpi .eq arg1 c11_i32
  let v49 : BitVec 32 := Scalar.extui v48
  let c0_i32_17 : BitVec 32 := 0#32
  let v50 : BitVec 1 := Scalar.cmpi .ne v49 c0_i32_17
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S3x4096x512_S12288x512 : S3x4096x512.ShapeCasts S12288x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  shapeCasts_S1024x1_S1024x1 : S1024x1.ShapeCasts S1024x1
  transposes_S1024x512_p1_0_S512x1024 : S1024x512.Transposes [1, 0] S512x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  bcast_S_S4096x1 : S_.BroadcastsInDim S4096x1 (![] : Fin 0 → Fin S4096x1.rank)
  reducesTo_S4096x1_S_d0_1 : S4096x1.ReducesTo [0, 1] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S12288x512.size a
  hwx0_2 : ∀ i : grid0.Coords, EltTy.bits .f32 = 32 ∨ (Rect.block (s := S12288x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S3x4096x512 : Shape := ⟨3, ![3, 4096, 512]⟩
abbrev S_ : Shape := ⟨0, ![]⟩
abbrev S4096 : Shape := ⟨1, ![4096]⟩
abbrev S4096x1 : Shape := ⟨2, ![4096, 1]⟩
abbrev S3x4096 : Shape := ⟨2, ![3, 4096]⟩
abbrev S3x4096x1 : Shape := ⟨3, ![3, 4096, 1]⟩
abbrev S4096x3x4096 : Shape := ⟨3, ![4096, 3, 4096]⟩
abbrev S4096x4096 : Shape := ⟨2, ![4096, 4096]⟩
abbrev S4096x1x4096 : Shape := ⟨3, ![4096, 1, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S3x4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S3x4096x512, .f32⟩
  | .hbm, ⟨24, _⟩ => ⟨S_, .f32⟩
  | .hbm, ⟨25, _⟩ => ⟨S3x4096, .f32⟩
  | .hbm, ⟨26, _⟩ => ⟨S3x4096x1, .f32⟩
  | .hbm, ⟨27, _⟩ => ⟨S3x4096x1, .f32⟩
  | .hbm, ⟨28, _⟩ => ⟨S_, .f32⟩
  | .hbm, ⟨29, _⟩ => ⟨S3x4096x1, .f32⟩
  | .hbm, ⟨30, _⟩ => ⟨S3x4096x1, .f32⟩
  | .hbm, ⟨31, _⟩ => ⟨S3x4096x512, .f32⟩
  | .hbm, ⟨32, _⟩ => ⟨S3x4096x512, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S4096x3x4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x1x4096, .i1⟩
  | .hbm, ⟨44, _⟩ => ⟨S_, .f32⟩
  | .hbm, ⟨45, _⟩ => ⟨S_, .f32⟩
  | .hbm, ⟨46, _⟩ => ⟨S4096x3x4096, .i1⟩
  | .hbm, ⟨47, _⟩ => ⟨S4096x3x4096, .f32⟩
  | .hbm, ⟨48, _⟩ => ⟨S4096x3x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096x3x4096, .f32⟩
  | .hbm, ⟨55, _⟩ => ⟨S4096x3x4096, .f32⟩
  | .hbm, ⟨56, _⟩ => ⟨S4096x3x4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S3x4096x512_S3x4096_d2 : S3x4096x512.ReducesTo [2] S3x4096
  bcast_S3x4096_S3x4096x1_0_1 : S3x4096.BroadcastsInDim S3x4096x1 (![0, 1] : Fin 2 → Fin S3x4096x1.rank)
  bcast_S_S3x4096x1 : S_.BroadcastsInDim S3x4096x1 (![] : Fin 0 → Fin S3x4096x1.rank)
  bcast_S3x4096x1_S3x4096x512_0_1_2 : S3x4096x1.BroadcastsInDim S3x4096x512 (![0, 1, 2] : Fin 3 → Fin S3x4096x512.rank)
  bcast_S_S4096x4096 : S_.BroadcastsInDim S4096x4096 (![] : Fin 0 → Fin S4096x4096.rank)
  bcast_S4096x4096_S4096x1x4096_0_2 : S4096x4096.BroadcastsInDim S4096x1x4096 (![0, 2] : Fin 2 → Fin S4096x1x4096.rank)
  bcast_S4096x1x4096_S4096x3x4096_0_1_2 : S4096x1x4096.BroadcastsInDim S4096x3x4096 (![0, 1, 2] : Fin 3 → Fin S4096x3x4096.rank)
  bcast_S_S4096x3x4096 : S_.BroadcastsInDim S4096x3x4096 (![] : Fin 0 → Fin S4096x3x4096.rank)
  bcast_S_S4096 : S_.BroadcastsInDim S4096 (![] : Fin 0 → Fin S4096.rank)
  reducesTo_S4096x3x4096_S4096_d1_2 : S4096x3x4096.ReducesTo [1, 2] S4096
  reducesTo_S4096_S_d0 : S4096.ReducesTo [0] S_
  dot_S4096x512_S3x4096x512_S4096x3x4096_1_2_0_01_n_n_wf : DotDims.WF S4096x512 S3x4096x512 S4096x3x4096 [1] [2] [0] [0, 1] [] []

variable [Facts₀]

def dot_S4096x512_S3x4096x512_S4096x3x4096_1_2_0_01_n_n : DotDims S4096x512 S3x4096x512 S4096x3x4096 where
  lhsContracting := [1]
  rhsContracting := [2]
  lhsNonContracting := [0]
  rhsNonContracting := [0, 1]
  lhsBatch := []
  rhsBatch := []
  wf := dot_S4096x512_S3x4096x512_S4096x3x4096_1_2_0_01_n_n_wf

class Facts : Prop extends Facts₀ where

variable [Facts]
-- ==== Proof.WordSchedule.lean ====
/-
  The grid is 4 row blocks by 12 key tiles, walked row block by row block: point t is row block t / 12, key tile t % 12.
  The body resets at the first key tile of a row block (t % 12 = 0: it normalises the anchor and positive blocks, stores
  the positive exponentials, caches the scaled unit anchors and zeroes the running sum) and publishes the running sum
  at the last (t % 12 = 11). Between them it only adds the tile's exponentials to the running sum.
  So the block of positive exponentials is stored at t % 12 = 0 and then sits untouched until it is written back after
  t % 12 = 11; the block of sums is stored and written back at t % 12 = 11.
-/
import proofs.«128369_j16295105921245_2_alg».proof.Proof.Gen.Kernel.Frame
import proofs.«128369_j16295105921245_2_alg».proof.Proof.Gen.Kernel.Skeleton
import Idealize.ShloMosaic.Lib.Pipeline.TableIdle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which publish -/

/-- The point is a row block's first key tile. -/
abbrev AtFirst (i : grid0.Coords) : Prop := k0_cond1 i = 1#1
/-- The point is a row block's last key tile. -/
abbrev AtLast (i : grid0.Coords) : Prop := k0_cond2 i = 1#1

theorem atFirst_iff : ∀ t : Fin cfg0.N, AtFirst (grid0.coords t) ↔ t.val % 12 = 0 :=
  (by decide +kernel : ∀ t : Fin grid0.N, AtFirst (grid0.coords t) ↔ t.val % 12 = 0)
theorem atLast_iff : ∀ t : Fin cfg0.N, AtLast (grid0.coords t) ↔ t.val % 12 = 11 :=
  (by decide +kernel : ∀ t : Fin grid0.N, AtLast (grid0.coords t) ↔ t.val % 12 = 11)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The positive exponentials are stored at a first key tile only. -/
theorem idle3_iff : ∀ t : Fin cfg0.N, cfg0.idle 3 (grid0.coords t) = true ↔ ¬ t.val % 12 = 0 :=
  (by decide +kernel : ∀ t : Fin grid0.N, cfg0.idle 3 (grid0.coords t) = true ↔ ¬ t.val % 12 = 0)
/-- The sums are stored at a last key tile only. -/
theorem idle4_iff : ∀ t : Fin cfg0.N, cfg0.idle 4 (grid0.coords t) = true ↔ ¬ t.val % 12 = 11 :=
  (by decide +kernel : ∀ t : Fin grid0.N, cfg0.idle 4 (grid0.coords t) = true ↔ ¬ t.val % 12 = 11)

theorem idle3_of {t : Fin cfg0.N} (h : ¬ t.val % 12 = 0) : cfg0.idle 3 (grid0.coords t) = true := (idle3_iff t).mpr h
theorem live3_of {t : Fin cfg0.N} (h : t.val % 12 = 0) : cfg0.idle 3 (grid0.coords t) = false := by
  cases hh : cfg0.idle 3 (grid0.coords t)
  · rfl
  · exact absurd h ((idle3_iff t).mp hh)
theorem idle4_of {t : Fin cfg0.N} (h : ¬ t.val % 12 = 11) : cfg0.idle 4 (grid0.coords t) = true := (idle4_iff t).mpr h
theorem live4_of {t : Fin cfg0.N} (h : t.val % 12 = 11) : cfg0.idle 4 (grid0.coords t) = false := by
  cases hh : cfg0.idle 4 (grid0.coords t)
  · rfl
  · exact absurd h ((idle4_iff t).mp hh)

theorem noFlush3_of {t : Fin cfg0.N} (h : ¬ t.val % 12 = 11) : (cfg0.win 3).flush t = false := by
  cases hh : (cfg0.win 3).flush t
  · rfl
  · exact absurd ((flush0_3 t).mp hh) h
theorem noFlush4_of {t : Fin cfg0.N} (h : ¬ t.val % 12 = 11) : (cfg0.win 4).flush t = false := by
  cases hh : (cfg0.win 4).flush t
  · rfl
  · exact absurd ((flush0_4 t).mp hh) h

/-! ## When an output's buffer holds nothing stored yet -/

/-- The buffer of positive exponentials is fresh exactly when a row block begins. -/
theorem fresh3 : ∀ n, n ≤ cfg0.N → cfg0.fresh 3 n = decide (n % 12 = 0) :=
  Pipeline.Cfg.fresh_tab cfg0 3 (fun n => decide (n % 12 = 0)) (by decide)
    (by decide +kernel : ∀ t : Fin grid0.N, decide ((t.val + 1) % 12 = 0) = ((cfg0.win 3).flush t || (cfg0.idle 3 (grid0.coords t) && decide (t.val % 12 = 0))))
/-- The buffer of sums is fresh at every point: it is stored only where it is written back. -/
theorem fresh4 : ∀ n, n ≤ cfg0.N → cfg0.fresh 4 n = true :=
  Pipeline.Cfg.fresh_tab cfg0 4 (fun _ => true) rfl
    (by decide +kernel : ∀ t : Fin grid0.N, true = ((cfg0.win 4).flush t || (cfg0.idle 4 (grid0.coords t) && true)))

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The cache of scaled unit anchor rows. -/
abbrev cacheM : Memref sig .tc .vmem S1024x512 .bf16 := Memref.whole cc0_scratch0
/-- The running sum. -/
abbrev sumM : Memref sig .tc .vmem S1024x1 .f32 := Memref.whole cc0_scratch1
abbrev cacheV : View sig .tc .vmem S1024x512 .bf16 := cacheM.view
abbrev sumV : View sig .tc .vmem S1024x1 .f32 := sumM.view
/-- A staging buffer of each output, through which its contents are stated (the choice does not matter). -/
abbrev posV : View sig .tc .vmem S1024x1 .f32 := (Memref.whole cc0_stg3_0 : Memref sig .tc .vmem S1024x1 .f32).view
abbrev negV : View sig .tc .vmem S1024x1 .f32 := (Memref.whole cc0_stg4_0 : Memref sig .tc .vmem S1024x1 .f32).view

/-- What the region's invariant holds besides the windows: the two scratch buffers at some contents, and the
    generator register. -/
theorem rest_eq (c : Dev nD) :
    (Pipeline.ΦA spec0 c : sProp 𝕄)
      = iprop(iprop((∃ d, owns (c : Thread nD τ) cacheM fullShare d) ∗ (∃ d, owns (c : Thread nD τ) sumM fullShare d)) ∗ (∃ r, prngReg c r)) := by
  unfold Pipeline.ΦA; rw [scopedRest0_eq]; simp only [cacheM, sumM, owns_whole]; try rfl

end Cert.Kernel.Body

end
-- ==== Proof.WordRunFirst.lean ====
/-
  The body at a row block's first key tile. From the anchor, positive and key blocks it stores the positive exponentials
  whole, the cache of scaled unit anchors whole, and the running sum twice (zero, then zero plus the tile's sum); it does
  not touch the block of sums. What each buffer ends with is found by running the body: a list of stored pieces.
-/
import proofs.«128369_j16295105921245_2_alg».proof.Proof.WordSchedule

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores at a first key tile — into the positive exponentials, the cache, the running sum — with the
    proof that, holding the three input blocks at their contents, the two outputs and the two scratch buffers, it runs
    to a state holding the inputs as they were, the block of sums untouched, and the other three with those pieces written. -/
noncomputable def runFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i)
    (x0 x1 x2 : Vec F S1024x512 .f32) :
    Σ' (L3 : List (View.Piece (Elt F) S1024x1 .f32)) (LC : List (View.Piece (Elt F) S1024x512 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%dc, %fc, -, HC⟩, ⟨%ds, %fs, -, HS⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HC]; · iexists _; iexact HC
    iexists _; iexact HS

end Cert.Kernel.Body

end
-- ==== Proof.WordRunMiddle.lean ====
/-
  The body at a key tile that is neither first nor last of its row block. It reads the cache and the key block, adds the
  tile's sum of exponentials to the running sum, and touches neither output block.
-/
import proofs.«128369_j16295105921245_2_alg».proof.Proof.WordRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The piece the body stores into the running sum at a middle key tile, with the proof that, holding the inputs, the cache
    and the running sum at their contents and the two outputs at theirs, it runs to a state holding everything as it was
    but the running sum, which has that piece written. -/
noncomputable def runMiddle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i)
    (x0 x1 x2 : Vec F S1024x512 .f32) (xc : Vec F S1024x512 .bf16) (xs : Vec F S1024x1 .f32) :
    { LS : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xc ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xc ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xi3 xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fc, %hfc, HC⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfc; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]
    · iexists _; isplitr; · ipureintro; exact harg7.read_unread _
      iexact HC
    iexists _; iexact HS

end Cert.Kernel.Body

end
-- ==== Proof.WordRunLast.lean ====
/-
  The body at a row block's last key tile. It adds the tile's sum to the running sum as at a middle tile, and then copies
  the running sum into the block of sums; the positive exponentials are not touched.
-/
import proofs.«128369_j16295105921245_2_alg».proof.Proof.WordRunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores at a last key tile — into the block of sums and the running sum — with the proof that,
    holding the inputs, the cache and the running sum at their contents, the positive exponentials at theirs and the block
    of sums at anything, it runs to a state holding the rest as it was and those two with the pieces written. -/
noncomputable def runLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i)
    (x0 x1 x2 : Vec F S1024x512 .f32) (xc : Vec F S1024x512 .bf16) (xs : Vec F S1024x1 .f32) :
    Σ' (L4 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xc ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ owns (c : Thread nD τ) arg7 fullShare xc ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi3 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fc, %hfc, HC⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfc; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HC]
    · iexists _; isplitr; · ipureintro; exact harg7.read_unread _
      iexact HC
    iexists _; iexact HS

end Cert.Kernel.Body

end
-- ==== Proof.WordFrame.lean ====
/-
  The frame of the pipelined region: every execution terminates, nothing faults, and the argument arrays end unchanged —
  with, on the way, what each output array holds named.

  After the body at point t the four buffers the kernel writes hold: the positive exponentials of the row block, stored at
  its first key tile and unchanged since; the block of sums, stored at its last key tile (before that, nothing anyone
  reads); the cache of scaled unit anchors, stored at the first key tile and unchanged since; the running sum, restarted
  at the first key tile and increased by every tile's sum of exponentials. The cache and the running sum live in scratch
  the kernel keeps between points, so the region's invariant carries them; the two output blocks are written back to
  their arrays after the last key tile of the row block.
-/
import proofs.«128369_j16295105921245_2_alg».proof.Proof.WordRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first key tile the stored pieces cover the block of positive exponentials. -/
theorem posFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S1024x1.size (by sl_kernel_rfl) y
/-- The same pieces read back as one block. -/
def posFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x1 .f32 :=
  posV.read (Elt F) (posV.writes (Elt F) posV.junk (runFirst c i arg2 harg2 arg3 harg3 arg4 harg4 arg5 harg5 arg6 harg6 arg7 harg7 arg8 harg8 hc0 hc1 x0 x1 x2).1)

/-- At a first key tile the stored pieces cover the cache. -/
theorem cacheFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x512.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S1024x512.size (by sl_kernel_rfl) y
/-- The same pieces read back as one block. -/
def cacheFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x512 .bf16 :=
  cacheV.read (Elt F) (cacheV.writes (Elt F) cacheV.junk (runFirst c i arg2 harg2 arg3 harg3 arg4 harg4 arg5 harg5 arg6 harg6 arg7 harg7 arg8 harg8 hc0 hc1 x0 x1 x2).2.1)

/-- At a first key tile the stored pieces cover the running sum. -/
theorem sumFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x1.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S1024x1.size (by sl_kernel_rfl) y
/-- The same pieces read back as one block. -/
def sumFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x1 .f32 :=
  sumV.read (Elt F) (sumV.writes (Elt F) sumV.junk (runFirst c i arg2 harg2 arg3 harg3 arg4 harg4 arg5 harg5 arg6 harg6 arg7 harg7 arg8 harg8 hc0 hc1 x0 x1 x2).2.2.1)

/-- At a middle key tile the stored piece covers the running sum. -/
theorem sumMiddle_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i) (x0 x1 x2 : Vec F S1024x512 .f32) (xc : Vec F S1024x512 .bf16) (xs : Vec F S1024x1 .f32) (y : S1024x1.Idx) :
    ∃ pc ∈ (runMiddle c i arg2 harg2 arg3 harg3 arg4 harg4 arg5 harg5 arg6 harg6 arg7 harg7 arg8 harg8 hc0 hc1 x0 x1 x2 xc xs).1, y ∈ pc.1.set :=
  View.cover_of_tiledL (runMiddle c i arg2 harg2 arg3 harg3 arg4 harg4 arg5 harg5 arg6 harg6 arg7 harg7 arg8 harg8 hc0 hc1 x0 x1 x2 xc xs).1 S1024x1.size (by sl_kernel_rfl) y
/-- The same pieces read back as one block. -/
def sumMiddle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i) (x0 x1 x2 : Vec F S1024x512 .f32) (xc : Vec F S1024x512 .bf16) (xs : Vec F S1024x1 .f32) : Vec F S1024x1 .f32 :=
  sumV.read (Elt F) (sumV.writes (Elt F) sumV.junk (runMiddle c i arg2 harg2 arg3 harg3 arg4 harg4 arg5 harg5 arg6 harg6 arg7 harg7 arg8 harg8 hc0 hc1 x0 x1 x2 xc xs).1)

/-- At a last key tile the stored piece covers the block of sums. -/
theorem negLast_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) (y : S1024x1.Idx) :
    ∃ pc ∈ (runLast c i arg2 harg2 arg3 harg3 arg4 harg4 arg5 harg5 arg6 harg6 arg7 harg7 arg8 harg8 hc0 hc1 x0 x1 x2 xc xs).1, y ∈ pc.1.set :=
  View.cover_of_tiledL (runLast c i arg2 harg2 arg3 harg3 arg4 harg4 arg5 harg5 arg6 harg6 arg7 harg7 arg8 harg8 hc0 hc1 x0 x1 x2 xc xs).1 S1024x1.size (by sl_kernel_rfl) y
/-- The same pieces read back as one block. -/
def negLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) : Vec F S1024x1 .f32 :=
  negV.read (Elt F) (negV.writes (Elt F) negV.junk (runLast c i arg2 harg2 arg3 harg3 arg4 harg4 arg5 harg5 arg6 harg6 arg7 harg7 arg8 harg8 hc0 hc1 x0 x1 x2 xc xs).1)

/-- At a last key tile the stored piece covers the running sum. -/
theorem sumLast_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) (y : S1024x1.Idx) :
    ∃ pc ∈ (runLast c i arg2 harg2 arg3 harg3 arg4 harg4 arg5 harg5 arg6 harg6 arg7 harg7 arg8 harg8 hc0 hc1 x0 x1 x2 xc xs).2.1, y ∈ pc.1.set :=
  View.cover_of_tiledL (runLast c i arg2 harg2 arg3 harg3 arg4 harg4 arg5 harg5 arg6 harg6 arg7 harg7 arg8 harg8 hc0 hc1 x0 x1 x2 xc xs).2.1 S1024x1.size (by sl_kernel_rfl) y
/-- The same pieces read back as one block. -/
def sumLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) : Vec F S1024x1 .f32 :=
  sumV.read (Elt F) (sumV.writes (Elt F) sumV.junk (runLast c i arg2 harg2 arg3 harg3 arg4 harg4 arg5 harg5 arg6 harg6 arg7 harg7 arg8 harg8 hc0 hc1 x0 x1 x2 xc xs).2.1)

/-- What the block of sums holds before its row block's last key tile: nothing anyone reads. -/
def unread : Vec F S1024x1 .f32 := negV.read (Elt F) negV.junk

/-! ## What the buffers hold after each point -/

/-- After the body at position `n`: the positive exponentials, the block of sums, the cache, the running sum. -/
def held (c : Dev nD) : (n : ℕ) → n < cfg0.N → Vec F S1024x1 .f32 × Vec F S1024x1 .f32 × Vec F S1024x512 .bf16 × Vec F S1024x1 .f32
  | 0, hn =>
    (posFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩),
     unread,
     cacheFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩),
     sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩))
  | n + 1, hn =>
    if h0 : (n + 1) % 12 = 0 then
      (posFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩),
       unread,
       cacheFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩),
       sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩))
    else if h1 : (n + 1) % 12 = 11 then
      ((held c n (Nat.lt_of_succ_lt hn)).1,
       negLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2,
       (held c n (Nat.lt_of_succ_lt hn)).2.2.1,
       sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2)
    else
      ((held c n (Nat.lt_of_succ_lt hn)).1,
       unread,
       (held c n (Nat.lt_of_succ_lt hn)).2.2.1,
       sumMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2)

/-- The point before `t`. -/
abbrev prev (t : Fin cfg0.N) : t.val - 1 < cfg0.N := Nat.lt_of_le_of_lt (Nat.sub_le _ _) t.isLt

theorem held_first (c : Dev nD) (t : Fin cfg0.N) (h0 : t.val % 12 = 0) (h1 : ¬t.val % 12 = 11) :
    held m c t.val t.isLt =
      (posFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t),
       unread,
       cacheFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t),
       sumFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t)) := by
  obtain ⟨n, hn⟩ := t
  cases n with
  | zero => exact rfl
  | succ n => exact (dif_pos h0).trans rfl

theorem held_last (c : Dev nD) (t : Fin cfg0.N) (h0 : ¬t.val % 12 = 0) (h1 : t.val % 12 = 11) :
    held m c t.val t.isLt =
      ((held m c (t.val - 1) (prev t)).1,
       negLast c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) ((atLast_iff t).mpr h1) (iblk m c 0 t) (iblk m c 1 t) (iblk m c 2 t) (held m c (t.val - 1) (prev t)).2.2.1 (held m c (t.val - 1) (prev t)).2.2.2,
       (held m c (t.val - 1) (prev t)).2.2.1,
       sumLast c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) ((atLast_iff t).mpr h1) (iblk m c 0 t) (iblk m c 1 t) (iblk m c 2 t) (held m c (t.val - 1) (prev t)).2.2.1 (held m c (t.val - 1) (prev t)).2.2.2) := by
  obtain ⟨n, hn⟩ := t
  cases n with
  | zero => exact absurd (Nat.zero_mod _) h0
  | succ n => exact (dif_neg h0).trans ((dif_pos h1).trans rfl)

theorem held_middle (c : Dev nD) (t : Fin cfg0.N) (h0 : ¬t.val % 12 = 0) (h1 : ¬t.val % 12 = 11) :
    held m c t.val t.isLt =
      ((held m c (t.val - 1) (prev t)).1,
       unread,
       (held m c (t.val - 1) (prev t)).2.2.1,
       sumMiddle c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) (fun h => h1 ((atLast_iff t).mp h)) (iblk m c 0 t) (iblk m c 1 t) (iblk m c 2 t) (held m c (t.val - 1) (prev t)).2.2.1 (held m c (t.val - 1) (prev t)).2.2.2) := by
  obtain ⟨n, hn⟩ := t
  cases n with
  | zero => exact absurd (Nat.zero_mod _) h0
  | succ n => exact (dif_neg h0).trans ((dif_neg h1).trans rfl)

/-! ## The invariant between points -/

/-- Before position `n`: at the start the two scratch buffers at anything; afterwards the cache and the running sum at
    what the point before left, and the generator register at some state. -/
def inv (c : Dev nD) : (n : ℕ) → n ≤ cfg0.N → sProp 𝕄
  | 0, _ => Pipeline.ΦA spec0 c
  | n + 1, hn => iprop(iprop(owns (c : Thread nD τ) cacheM fullShare ((held m c n hn).2.2.1) ∗ owns (c : Thread nD τ) sumM fullShare ((held m c n hn).2.2.2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) cacheM fullShare ((held m c n hn).2.2.1) ∗ owns (c : Thread nD τ) sumM fullShare ((held m c n hn).2.2.2)) ∗ (∃ r, prngReg c r)) := rfl
theorem inv_pos (c : Dev nD) (n : ℕ) (h : n ≤ cfg0.N) (hz : n ≠ 0) :
    inv m c n h = iprop(iprop(owns (c : Thread nD τ) cacheM fullShare ((held m c (n - 1) (by omega)).2.2.1) ∗ owns (c : Thread nD τ) sumM fullShare ((held m c (n - 1) (by omega)).2.2.2)) ∗ (∃ r, prngReg c r)) := by
  cases n with
  | zero => exact absurd rfl hz
  | succ n => rfl

/-! ## The proof data -/

/-- The arrays as the region finds them; after the body at `t` each input buffer at its block and the two output
    buffers at what `held` says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
    | ⟨4, _⟩ => (held m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (held m c t.val t.isLt).1 := by dsimp only [dats]
theorem after4 (c : Dev nD) (t : Fin cfg0.N) : (dats m 0 c).after 4 t = (held m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The positive exponentials are carried unchanged through the points that do not store them. -/
theorem pos_carried (c : Dev nD) (t : Fin cfg0.N) (h0 : ¬t.val % 12 = 0) :
    (held m c t.val t.isLt).1 = (held m c (t.val - 1) (prev t)).1 := by
  by_cases h1 : t.val % 12 = 11
  · rw [held_last m c t h0 h1]
  · rw [held_middle m c t h0 h1]

/-- At a point that does not begin a row block, the buffer of positive exponentials holds what the point before left. -/
theorem before3 (c : Dev nD) (t : Fin cfg0.N) (h0 : ¬t.val % 12 = 0) (d) :
    (dats m 0 c).before 3 t d = (held m c (t.val - 1) (prev t)).1 := by
  have hN : t.val < 48 := lt_of_lt_of_eq t.isLt (show cfg0.N = 48 from N_0)
  rw [Pipeline.Dat.before_out_traj (dats m 0 c) 3 rfl (fun _ _ => rfl)
    (fun s hs hi _ => by
      rw [after3, after3]
      exact pos_carried m c s ((idle3_iff s).mp hi)) t.val t rfl d]
  rw [fresh3 t.val (Nat.le_of_lt t.isLt), if_neg (by simpa using h0), after3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the case is read off t % 12; the run of that case applies, the invariant hands it the cache and
    the running sum at what the point before left (at anything at the very first point) and takes them back at this
    point's contents; an output block the case does not store goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves0, leaves1, leaves2]
  rw [show (dats m 0 c).owesAt () t.succ = (dats m 0 c).owesAt () t.castSucc from rfl]
  rw [show (dats m 0 c).Φ t.succ = inv m c (t.val + 1) t.isLt from rfl, inv_succ]
  have hN : t.val < 48 := lt_of_lt_of_eq t.isLt (show cfg0.N = 48 from N_0)
  by_cases h0 : t.val % 12 = 0
  · have h1 : ¬t.val % 12 = 11 := by omega
    rw [show (dats m 0 c).leavesExact 3 t = owns (c : Thread nD τ) (ms3 t) fullShare ((dats m 0 c).after 3 t) from by
      unfold Dat.leavesExact; rw [live3_of h0], after3]
    rw [Dat.leavesExact_idle (dats m 0 c) 4 t (idle4_of h1) (noFlush4_of h1)]
    rw [held_first m c t h0 h1]
    unfold posFirst cacheFirst sumFirst; (try dsimp only)
    by_cases hz : t.val = 0
    · rw [inv_castSucc m c t, inv_zero m c _ _ hz, rest_eq]
      iintro ⟨⟨⟨HC, HS⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t) (iblk m c 2 t)).2.2.2 _ Set.univ _)
      isplitl [H0]; · iexact H0
      isplitl [H1]; · iexact H1
      isplitl [H2]; · iexact H2
      isplitl [H3]; · iexists _; iexact H3
      isplitl [H4]; · iexact H4
      isplitl [HC]; · iexact HC
      isplitl [HS]; · iexact HS
      iintro ⟨H0, H1, H2, ⟨%e3, H3⟩, H4, ⟨%ec, HC⟩, ⟨%es, HS⟩⟩
      isplitl [HC HS Hg]
      · isplitl [HC HS]
        · isplitl [HC]
          · unfold owns; iexists _; isplitr
            swap; · iexact HC
            ipureintro; exact View.read_writes_of_cover _ _ _ _ _ (cacheFirst_cover c _ _ _ _ _ _ _ _ _ _ _ _ _ _ _ _ _ _ _ _)
          unfold owns; iexists _; isplitr
          swap; · iexact HS
          ipureintro; exact View.read_writes_of_cover _ _ _ _ _ (sumFirst_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (posFirst_cover c _ _ _ _ _ _ _ _ _ _ _ _ _ _ _ _ _ _ _ _)
      iexists _; iexact H4
    · rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t) (iblk m c 2 t)).2.2.2 _ Set.univ _)
      isplitl [H0]; · iexact H0
      isplitl [H1]; · iexact H1
      isplitl [H2]; · iexact H2
      isplitl [H3]; · iexists _; iexact H3
      isplitl [H4]; · iexact H4
      isplitl [HC]; · iexists _; iexact HC
      isplitl [HS]; · iexists _; iexact HS
      iintro ⟨H0, H1, H2, ⟨%e3, H3⟩, H4, ⟨%ec, HC⟩, ⟨%es, HS⟩⟩
      isplitl [HC HS Hg]
      · isplitl [HC HS]
        · isplitl [HC]
          · unfold owns; iexists _; isplitr
            swap; · iexact HC
            ipureintro; exact View.read_writes_of_cover _ _ _ _ _ (cacheFirst_cover c _ _ _ _ _ _ _ _ _ _ _ _ _ _ _ _ _ _ _ _)
          unfold owns; iexists _; isplitr
          swap; · iexact HS
          ipureintro; exact View.read_writes_of_cover _ _ _ _ _ (sumFirst_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (posFirst_cover c _ _ _ _ _ _ _ _ _ _ _ _ _ _ _ _ _ _ _ _)
      iexists _; iexact H4
  · have hz : t.val ≠ 0 := fun h => h0 (by rw [h])
    by_cases h1 : t.val % 12 = 11
    · rw [show (dats m 0 c).leavesExact 3 t = owns (c : Thread nD τ) (ms3 t) fullShare ((dats m 0 c).after 3 t) from by
        unfold Dat.leavesExact; rw [idle3_of h0, (flush0_3 t).mpr h1], after3]
      rw [show (dats m 0 c).leavesExact 4 t = owns (c : Thread nD τ) (ms4 t) fullShare ((dats m 0 c).after 4 t) from by
        unfold Dat.leavesExact; rw [live4_of h1], after4]
      simp only [before3 m c t h0]
      rw [held_last m c t h0 h1]
      unfold negLast sumLast; (try dsimp only)
      rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [H4]; · iexists _; iexact H4
      isplitl [HC]; · iexact HC
      isplitl [HS]; · iexact HS
      iintro ⟨H0, H1, H2, H3, ⟨%e4, H4⟩, HC, ⟨%es, HS⟩⟩
      isplitl [HC HS Hg]
      · isplitl [HC HS]
        · isplitl [HC]
          · iexact HC
          unfold owns; iexists _; isplitr
          swap; · iexact HS
          ipureintro; exact View.read_writes_of_cover _ _ _ _ _ (sumLast_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (negLast_cover c _ _ _ _ _ _ _ _ _ _ _ _ _ _ _ _ _ _ _ _ _ _)
    · rw [Dat.leavesExact_idle (dats m 0 c) 3 t (idle3_of h0) (noFlush3_of h1)]
      rw [Dat.leavesExact_idle (dats m 0 c) 4 t (idle4_of h1) (noFlush4_of h1)]
      rw [held_middle m c t h0 h1]
      unfold sumMiddle; (try dsimp only)
      rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ (fun h => h0 ((atFirst_iff t).mp h)) (fun h => h1 ((atLast_iff t).mp h)) (iblk m c 0 t) (iblk m c 1 t) (iblk m c 2 t) _ _).2 _ _ Set.univ _)
      isplitl [H0]; · iexact H0
      isplitl [H1]; · iexact H1
      isplitl [H2]; · iexact H2
      isplitl [H3]; · iexact H3
      isplitl [H4]; · iexact H4
      isplitl [HC]; · iexact HC
      isplitl [HS]; · iexact HS
      iintro ⟨H0, H1, H2, H3, H4, HC, ⟨%es, HS⟩⟩
      isplitl [HC HS Hg]
      · isplitl [HC HS]
        · isplitl [HC]
          · iexact HC
          unfold owns; iexists _; isplitr
          swap; · iexact HS
          ipureintro; exact View.read_writes_of_cover _ _ _ _ _ (sumMiddle_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, rest_eq]
  iintro ⟨⟨HC, HS⟩, Hg⟩
  isplitl [HC HS]
  · isplitl [HC]
    · iexists _; iexact HC
    iexists _; iexact HS
  iexact Hg

theorem hout (c : Dev nD) : (dats m 0 c).Φ (Fin.last cfg0.N) ⊢ Pipeline.ΦA spec0 c :=
  inv_out m c _ (by rw [Fin.val_last]; have : cfg0.N = 48 := N_0; omega)

/-! ## The run and the frame -/

set_option backward.isDefEq.respectTransparency.types false in
/-- Every weakly fair execution of @main terminates, and every final state has each array of the pipeline at what the
    proof data says was written back into it and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealSchedule.lean ====
/-
  The grid is 4 row blocks by 12 key tiles, walked row block by row block: point t is row block t / 12, key tile t % 12.
  The body resets at the first key tile of a row block (t % 12 = 0: it normalises the anchor and positive blocks, stores
  the positive exponentials, caches the scaled unit anchors and zeroes the running sum) and publishes the running sum
  at the last (t % 12 = 11). Between them it only adds the tile's exponentials to the running sum.
  So the block of positive exponentials is stored at t % 12 = 0 and then sits untouched until it is written back after
  t % 12 = 11; the block of sums is stored and written back at t % 12 = 11.
-/
import proofs.«128369_j16295105921245_2_alg».proof.Proof.Gen.KernelIdeal.Frame
import proofs.«128369_j16295105921245_2_alg».proof.Proof.Gen.KernelIdeal.Skeleton
import Idealize.ShloMosaic.Lib.Pipeline.TableIdle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points reset and which publish -/

/-- The point is a row block's first key tile. -/
abbrev AtFirst (i : grid0.Coords) : Prop := k0_cond1 i = 1#1
/-- The point is a row block's last key tile. -/
abbrev AtLast (i : grid0.Coords) : Prop := k0_cond2 i = 1#1

theorem atFirst_iff : ∀ t : Fin cfg0.N, AtFirst (grid0.coords t) ↔ t.val % 12 = 0 :=
  (by decide +kernel : ∀ t : Fin grid0.N, AtFirst (grid0.coords t) ↔ t.val % 12 = 0)
theorem atLast_iff : ∀ t : Fin cfg0.N, AtLast (grid0.coords t) ↔ t.val % 12 = 11 :=
  (by decide +kernel : ∀ t : Fin grid0.N, AtLast (grid0.coords t) ↔ t.val % 12 = 11)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The positive exponentials are stored at a first key tile only. -/
theorem idle3_iff : ∀ t : Fin cfg0.N, cfg0.idle 3 (grid0.coords t) = true ↔ ¬ t.val % 12 = 0 :=
  (by decide +kernel : ∀ t : Fin grid0.N, cfg0.idle 3 (grid0.coords t) = true ↔ ¬ t.val % 12 = 0)
/-- The sums are stored at a last key tile only. -/
theorem idle4_iff : ∀ t : Fin cfg0.N, cfg0.idle 4 (grid0.coords t) = true ↔ ¬ t.val % 12 = 11 :=
  (by decide +kernel : ∀ t : Fin grid0.N, cfg0.idle 4 (grid0.coords t) = true ↔ ¬ t.val % 12 = 11)

theorem idle3_of {t : Fin cfg0.N} (h : ¬ t.val % 12 = 0) : cfg0.idle 3 (grid0.coords t) = true := (idle3_iff t).mpr h
theorem live3_of {t : Fin cfg0.N} (h : t.val % 12 = 0) : cfg0.idle 3 (grid0.coords t) = false := by
  cases hh : cfg0.idle 3 (grid0.coords t)
  · rfl
  · exact absurd h ((idle3_iff t).mp hh)
theorem idle4_of {t : Fin cfg0.N} (h : ¬ t.val % 12 = 11) : cfg0.idle 4 (grid0.coords t) = true := (idle4_iff t).mpr h
theorem live4_of {t : Fin cfg0.N} (h : t.val % 12 = 11) : cfg0.idle 4 (grid0.coords t) = false := by
  cases hh : cfg0.idle 4 (grid0.coords t)
  · rfl
  · exact absurd h ((idle4_iff t).mp hh)

theorem noFlush3_of {t : Fin cfg0.N} (h : ¬ t.val % 12 = 11) : (cfg0.win 3).flush t = false := by
  cases hh : (cfg0.win 3).flush t
  · rfl
  · exact absurd ((flush0_3 t).mp hh) h
theorem noFlush4_of {t : Fin cfg0.N} (h : ¬ t.val % 12 = 11) : (cfg0.win 4).flush t = false := by
  cases hh : (cfg0.win 4).flush t
  · rfl
  · exact absurd ((flush0_4 t).mp hh) h

/-! ## When an output's buffer holds nothing stored yet -/

/-- The buffer of positive exponentials is fresh exactly when a row block begins. -/
theorem fresh3 : ∀ n, n ≤ cfg0.N → cfg0.fresh 3 n = decide (n % 12 = 0) :=
  Pipeline.Cfg.fresh_tab cfg0 3 (fun n => decide (n % 12 = 0)) (by decide)
    (by decide +kernel : ∀ t : Fin grid0.N, decide ((t.val + 1) % 12 = 0) = ((cfg0.win 3).flush t || (cfg0.idle 3 (grid0.coords t) && decide (t.val % 12 = 0))))
/-- The buffer of sums is fresh at every point: it is stored only where it is written back. -/
theorem fresh4 : ∀ n, n ≤ cfg0.N → cfg0.fresh 4 n = true :=
  Pipeline.Cfg.fresh_tab cfg0 4 (fun _ => true) rfl
    (by decide +kernel : ∀ t : Fin grid0.N, true = ((cfg0.win 4).flush t || (cfg0.idle 4 (grid0.coords t) && true)))

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The cache of scaled unit anchor rows. -/
abbrev cacheM : Memref sig .tc .vmem S1024x512 .bf16 := Memref.whole cc0_scratch0
/-- The running sum. -/
abbrev sumM : Memref sig .tc .vmem S1024x1 .f32 := Memref.whole cc0_scratch1
abbrev cacheV : View sig .tc .vmem S1024x512 .bf16 := cacheM.view
abbrev sumV : View sig .tc .vmem S1024x1 .f32 := sumM.view
/-- A staging buffer of each output, through which its contents are stated (the choice does not matter). -/
abbrev posV : View sig .tc .vmem S1024x1 .f32 := (Memref.whole cc0_stg3_0 : Memref sig .tc .vmem S1024x1 .f32).view
abbrev negV : View sig .tc .vmem S1024x1 .f32 := (Memref.whole cc0_stg4_0 : Memref sig .tc .vmem S1024x1 .f32).view

/-- What the region's invariant holds besides the windows: the two scratch buffers at some contents, and the
    generator register. -/
theorem rest_eq (c : Dev nD) :
    (Pipeline.ΦA spec0 c : sProp 𝕄)
      = iprop(iprop((∃ d, owns (c : Thread nD τ) cacheM fullShare d) ∗ (∃ d, owns (c : Thread nD τ) sumM fullShare d)) ∗ (∃ r, prngReg c r)) := by
  unfold Pipeline.ΦA; rw [scopedRest0_eq]; simp only [cacheM, sumM, owns_whole]; try rfl

end Cert.KernelIdeal.Body

end
-- ==== Proof.IdealRunFirst.lean ====
/-
  The body at a row block's first key tile. From the anchor, positive and key blocks it stores the positive exponentials
  whole, the cache of scaled unit anchors whole, and the running sum twice (zero, then zero plus the tile's sum); it does
  not touch the block of sums. What each buffer ends with is found by running the body: a list of stored pieces.
-/
import proofs.«128369_j16295105921245_2_alg».proof.Proof.IdealSchedule

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores at a first key tile — into the positive exponentials, the cache, the running sum — with the
    proof that, holding the three input blocks at their contents, the two outputs and the two scratch buffers, it runs
    to a state holding the inputs as they were, the block of sums untouched, and the other three with those pieces written. -/
noncomputable def runFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i)
    (x0 x1 x2 : Vec F S1024x512 .f32) :
    Σ' (L3 : List (View.Piece (Elt F) S1024x1 .f32)) (LC : List (View.Piece (Elt F) S1024x512 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%dc, %fc, -, HC⟩, ⟨%ds, %fs, -, HS⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HC]; · iexists _; iexact HC
    iexists _; iexact HS

end Cert.KernelIdeal.Body

end
-- ==== Proof.IdealRunMiddle.lean ====
/-
  The body at a key tile that is neither first nor last of its row block. It reads the cache and the key block, adds the
  tile's sum of exponentials to the running sum, and touches neither output block.
-/
import proofs.«128369_j16295105921245_2_alg».proof.Proof.IdealRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The piece the body stores into the running sum at a middle key tile, with the proof that, holding the inputs, the cache
    and the running sum at their contents and the two outputs at theirs, it runs to a state holding everything as it was
    but the running sum, which has that piece written. -/
noncomputable def runMiddle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i)
    (x0 x1 x2 : Vec F S1024x512 .f32) (xc : Vec F S1024x512 .bf16) (xs : Vec F S1024x1 .f32) :
    { LS : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xc ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xc ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xi3 xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fc, %hfc, HC⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfc; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HC]
    · iexists _; isplitr; · ipureintro; exact harg7.read_unread _
      iexact HC
    iexists _; iexact HS

end Cert.KernelIdeal.Body

end
-- ==== Proof.IdealRunLast.lean ====
/-
  The body at a row block's last key tile. It adds the tile's sum to the running sum as at a middle tile, and then copies
  the running sum into the block of sums; the positive exponentials are not touched.
-/
import proofs.«128369_j16295105921245_2_alg».proof.Proof.IdealRunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores at a last key tile — into the block of sums and the running sum — with the proof that,
    holding the inputs, the cache and the running sum at their contents, the positive exponentials at theirs and the block
    of sums at anything, it runs to a state holding the rest as it was and those two with the pieces written. -/
noncomputable def runLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i)
    (x0 x1 x2 : Vec F S1024x512 .f32) (xc : Vec F S1024x512 .bf16) (xs : Vec F S1024x1 .f32) :
    Σ' (L4 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xc ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ owns (c : Thread nD τ) arg7 fullShare xc ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi3 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fc, %hfc, HC⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfc; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HC]
    · iexists _; isplitr; · ipureintro; exact harg7.read_unread _
      iexact HC
    iexists _; iexact HS

end Cert.KernelIdeal.Body

end
-- ==== Proof.IdealFrame.lean ====
/-
  The frame of the pipelined region: every execution terminates, nothing faults, and the argument arrays end unchanged —
  with, on the way, what each output array holds named.

  After the body at point t the four buffers the kernel writes hold: the positive exponentials of the row block, stored at
  its first key tile and unchanged since; the block of sums, stored at its last key tile (before that, nothing anyone
  reads); the cache of scaled unit anchors, stored at the first key tile and unchanged since; the running sum, restarted
  at the first key tile and increased by every tile's sum of exponentials. The cache and the running sum live in scratch
  the kernel keeps between points, so the region's invariant carries them; the two output blocks are written back to
  their arrays after the last key tile of the row block.
-/
import proofs.«128369_j16295105921245_2_alg».proof.Proof.IdealRunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- At a first key tile the stored pieces cover the block of positive exponentials. -/
theorem posFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S1024x1.size (by sl_kernel_rfl) y
/-- The same pieces read back as one block. -/
def posFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x1 .f32 :=
  posV.read (Elt F) (posV.writes (Elt F) posV.junk (runFirst c i arg2 harg2 arg3 harg3 arg4 harg4 arg5 harg5 arg6 harg6 arg7 harg7 arg8 harg8 hc0 hc1 x0 x1 x2).1)

/-- At a first key tile the stored pieces cover the cache. -/
theorem cacheFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x512.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S1024x512.size (by sl_kernel_rfl) y
/-- The same pieces read back as one block. -/
def cacheFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x512 .bf16 :=
  cacheV.read (Elt F) (cacheV.writes (Elt F) cacheV.junk (runFirst c i arg2 harg2 arg3 harg3 arg4 harg4 arg5 harg5 arg6 harg6 arg7 harg7 arg8 harg8 hc0 hc1 x0 x1 x2).2.1)

/-- At a first key tile the stored pieces cover the running sum. -/
theorem sumFirst_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) (y : S1024x1.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S1024x1.size (by sl_kernel_rfl) y
/-- The same pieces read back as one block. -/
def sumFirst (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) : Vec F S1024x1 .f32 :=
  sumV.read (Elt F) (sumV.writes (Elt F) sumV.junk (runFirst c i arg2 harg2 arg3 harg3 arg4 harg4 arg5 harg5 arg6 harg6 arg7 harg7 arg8 harg8 hc0 hc1 x0 x1 x2).2.2.1)

/-- At a middle key tile the stored piece covers the running sum. -/
theorem sumMiddle_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i) (x0 x1 x2 : Vec F S1024x512 .f32) (xc : Vec F S1024x512 .bf16) (xs : Vec F S1024x1 .f32) (y : S1024x1.Idx) :
    ∃ pc ∈ (runMiddle c i arg2 harg2 arg3 harg3 arg4 harg4 arg5 harg5 arg6 harg6 arg7 harg7 arg8 harg8 hc0 hc1 x0 x1 x2 xc xs).1, y ∈ pc.1.set :=
  View.cover_of_tiledL (runMiddle c i arg2 harg2 arg3 harg3 arg4 harg4 arg5 harg5 arg6 harg6 arg7 harg7 arg8 harg8 hc0 hc1 x0 x1 x2 xc xs).1 S1024x1.size (by sl_kernel_rfl) y
/-- The same pieces read back as one block. -/
def sumMiddle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i) (x0 x1 x2 : Vec F S1024x512 .f32) (xc : Vec F S1024x512 .bf16) (xs : Vec F S1024x1 .f32) : Vec F S1024x1 .f32 :=
  sumV.read (Elt F) (sumV.writes (Elt F) sumV.junk (runMiddle c i arg2 harg2 arg3 harg3 arg4 harg4 arg5 harg5 arg6 harg6 arg7 harg7 arg8 harg8 hc0 hc1 x0 x1 x2 xc xs).1)

/-- At a last key tile the stored piece covers the block of sums. -/
theorem negLast_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) (y : S1024x1.Idx) :
    ∃ pc ∈ (runLast c i arg2 harg2 arg3 harg3 arg4 harg4 arg5 harg5 arg6 harg6 arg7 harg7 arg8 harg8 hc0 hc1 x0 x1 x2 xc xs).1, y ∈ pc.1.set :=
  View.cover_of_tiledL (runLast c i arg2 harg2 arg3 harg3 arg4 harg4 arg5 harg5 arg6 harg6 arg7 harg7 arg8 harg8 hc0 hc1 x0 x1 x2 xc xs).1 S1024x1.size (by sl_kernel_rfl) y
/-- The same pieces read back as one block. -/
def negLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) : Vec F S1024x1 .f32 :=
  negV.read (Elt F) (negV.writes (Elt F) negV.junk (runLast c i arg2 harg2 arg3 harg3 arg4 harg4 arg5 harg5 arg6 harg6 arg7 harg7 arg8 harg8 hc0 hc1 x0 x1 x2 xc xs).1)

/-- At a last key tile the stored piece covers the running sum. -/
theorem sumLast_cover (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) (y : S1024x1.Idx) :
    ∃ pc ∈ (runLast c i arg2 harg2 arg3 harg3 arg4 harg4 arg5 harg5 arg6 harg6 arg7 harg7 arg8 harg8 hc0 hc1 x0 x1 x2 xc xs).2.1, y ∈ pc.1.set :=
  View.cover_of_tiledL (runLast c i arg2 harg2 arg3 harg3 arg4 harg4 arg5 harg5 arg6 harg6 arg7 harg7 arg8 harg8 hc0 hc1 x0 x1 x2 xc xs).2.1 S1024x1.size (by sl_kernel_rfl) y
/-- The same pieces read back as one block. -/
def sumLast (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) : Vec F S1024x1 .f32 :=
  sumV.read (Elt F) (sumV.writes (Elt F) sumV.junk (runLast c i arg2 harg2 arg3 harg3 arg4 harg4 arg5 harg5 arg6 harg6 arg7 harg7 arg8 harg8 hc0 hc1 x0 x1 x2 xc xs).2.1)

/-- What the block of sums holds before its row block's last key tile: nothing anyone reads. -/
def unread : Vec F S1024x1 .f32 := negV.read (Elt F) negV.junk

/-! ## What the buffers hold after each point -/

/-- After the body at position `n`: the positive exponentials, the block of sums, the cache, the running sum. -/
def held (c : Dev nD) : (n : ℕ) → n < cfg0.N → Vec F S1024x1 .f32 × Vec F S1024x1 .f32 × Vec F S1024x512 .bf16 × Vec F S1024x1 .f32
  | 0, hn =>
    (posFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩),
     unread,
     cacheFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩),
     sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) cacheM (Memref.isWhole_whole _) sumM (Memref.isWhole_whole _) ((atFirst_iff ⟨0, hn⟩).mpr (Nat.zero_mod _)) (fun h => absurd ((atLast_iff ⟨0, hn⟩).mp h) (by show ¬ 0 % 12 = 11; decide)) (iblk m c 0 ⟨0, hn⟩) (iblk m c 1 ⟨0, hn⟩) (iblk m c 2 ⟨0, hn⟩))
  | n + 1, hn =>
    if h0 : (n + 1) % 12 = 0 then
      (posFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩),
       unread,
       cacheFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩),
       sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) ((atFirst_iff ⟨n + 1, hn⟩).mpr h0) (fun h => absurd ((atLast_iff ⟨n + 1, hn⟩).mp h) (by show ¬ (n + 1) % 12 = 11; omega)) (iblk m c 0 ⟨n + 1, hn⟩) (iblk m c 1 ⟨n + 1, hn⟩) (iblk m c 2 ⟨n + 1, hn⟩))
    else if h1 : (n + 1) % 12 = 11 then
      ((held c n (Nat.lt_of_succ_lt hn)).1,
       negLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2,
       (held c n (Nat.lt_of_succ_lt hn)).2.2.1,
       sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2)
    else
      ((held c n (Nat.lt_of_succ_lt hn)).1,
       unread,
       (held c n (Nat.lt_of_succ_lt hn)).2.2.1,
       sumMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) cacheM (Memref.isWhole_whole _) sumM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (held c n (Nat.lt_of_succ_lt hn)).2.2.1 (held c n (Nat.lt_of_succ_lt hn)).2.2.2)

/-- The point before `t`. -/
abbrev prev (t : Fin cfg0.N) : t.val - 1 < cfg0.N := Nat.lt_of_le_of_lt (Nat.sub_le _ _) t.isLt

theorem held_first (c : Dev nD) (t : Fin cfg0.N) (h0 : t.val % 12 = 0) (h1 : ¬t.val % 12 = 11) :
    held m c t.val t.isLt =
      (posFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t),
       unread,
       cacheFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t),
       sumFirst c (grid0.coords t) (ms0 t) (hs0 t) (ms1 t) (hs1 t) (ms2 t) (hs2 t) (ms3 t) (hs3 t) (ms4 t) (hs4 t) cacheM (Memref.isWhole_whole _) sumM (Memref.isWhole_whole _) ((atFirst_iff t).mpr h0) (fun h => h1 ((atLast_iff t).mp h)) (iblk m c 0 t) (iblk m c 1 t) (iblk m c 2 t)) := by
  obtain ⟨n, hn⟩ := t
  cases n with
  | zero => exact rfl
  | succ n => exact (dif_pos h0).trans rfl

theorem held_last (c : Dev nD) (t : Fin cfg0.N) (h0 : ¬t.val % 12 = 0) (h1 : t.val % 12 = 11) :
    held m c t.val t.isLt =
      ((held m c (t.val - 1) (prev t)).1,
       negLast c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) ((atLast_iff t).mpr h1) (iblk m c 0 t) (iblk m c 1 t) (iblk m c 2 t) (held m c (t.val - 1) (prev t)).2.2.1 (held m c (t.val - 1) (prev t)).2.2.2,
       (held m c (t.val - 1) (prev t)).2.2.1,
       sumLast c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) ((atLast_iff t).mpr h1) (iblk m c 0 t) (iblk m c 1 t) (iblk m c 2 t) (held m c (t.val - 1) (prev t)).2.2.1 (held m c (t.val - 1) (prev t)).2.2.2) := by
  obtain ⟨n, hn⟩ := t
  cases n with
  | zero => exact absurd (Nat.zero_mod _) h0
  | succ n => exact (dif_neg h0).trans ((dif_pos h1).trans rfl)

theorem held_middle (c : Dev nD) (t : Fin cfg0.N) (h0 : ¬t.val % 12 = 0) (h1 : ¬t.val % 12 = 11) :
    held m c t.val t.isLt =
      ((held m c (t.val - 1) (prev t)).1,
       unread,
       (held m c (t.val - 1) (prev t)).2.2.1,
       sumMiddle c (grid0.coords t) (ms0 t) (hs0 t) (ms1 t) (hs1 t) (ms2 t) (hs2 t) (ms3 t) (hs3 t) (ms4 t) (hs4 t) cacheM (Memref.isWhole_whole _) sumM (Memref.isWhole_whole _) (fun h => h0 ((atFirst_iff t).mp h)) (fun h => h1 ((atLast_iff t).mp h)) (iblk m c 0 t) (iblk m c 1 t) (iblk m c 2 t) (held m c (t.val - 1) (prev t)).2.2.1 (held m c (t.val - 1) (prev t)).2.2.2) := by
  obtain ⟨n, hn⟩ := t
  cases n with
  | zero => exact absurd (Nat.zero_mod _) h0
  | succ n => exact (dif_neg h0).trans ((dif_neg h1).trans rfl)

/-! ## The invariant between points -/

/-- Before position `n`: at the start the two scratch buffers at anything; afterwards the cache and the running sum at
    what the point before left, and the generator register at some state. -/
def inv (c : Dev nD) : (n : ℕ) → n ≤ cfg0.N → sProp 𝕄
  | 0, _ => Pipeline.ΦA spec0 c
  | n + 1, hn => iprop(iprop(owns (c : Thread nD τ) cacheM fullShare ((held m c n hn).2.2.1) ∗ owns (c : Thread nD τ) sumM fullShare ((held m c n hn).2.2.2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) cacheM fullShare ((held m c n hn).2.2.1) ∗ owns (c : Thread nD τ) sumM fullShare ((held m c n hn).2.2.2)) ∗ (∃ r, prngReg c r)) := rfl
theorem inv_pos (c : Dev nD) (n : ℕ) (h : n ≤ cfg0.N) (hz : n ≠ 0) :
    inv m c n h = iprop(iprop(owns (c : Thread nD τ) cacheM fullShare ((held m c (n - 1) (by omega)).2.2.1) ∗ owns (c : Thread nD τ) sumM fullShare ((held m c (n - 1) (by omega)).2.2.2)) ∗ (∃ r, prngReg c r)) := by
  cases n with
  | zero => exact absurd rfl hz
  | succ n => rfl

/-! ## The proof data -/

/-- The arrays as the region finds them; after the body at `t` each input buffer at its block and the two output
    buffers at what `held` says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
    | ⟨4, _⟩ => (held m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (held m c t.val t.isLt).1 := by dsimp only [dats]
theorem after4 (c : Dev nD) (t : Fin cfg0.N) : (dats m 0 c).after 4 t = (held m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The positive exponentials are carried unchanged through the points that do not store them. -/
theorem pos_carried (c : Dev nD) (t : Fin cfg0.N) (h0 : ¬t.val % 12 = 0) :
    (held m c t.val t.isLt).1 = (held m c (t.val - 1) (prev t)).1 := by
  by_cases h1 : t.val % 12 = 11
  · rw [held_last m c t h0 h1]
  · rw [held_middle m c t h0 h1]

/-- At a point that does not begin a row block, the buffer of positive exponentials holds what the point before left. -/
theorem before3 (c : Dev nD) (t : Fin cfg0.N) (h0 : ¬t.val % 12 = 0) (d) :
    (dats m 0 c).before 3 t d = (held m c (t.val - 1) (prev t)).1 := by
  have hN : t.val < 48 := lt_of_lt_of_eq t.isLt (show cfg0.N = 48 from N_0)
  rw [Pipeline.Dat.before_out_traj (dats m 0 c) 3 rfl (fun _ _ => rfl)
    (fun s hs hi _ => by
      rw [after3, after3]
      exact pos_carried m c s ((idle3_iff s).mp hi)) t.val t rfl d]
  rw [fresh3 t.val (Nat.le_of_lt t.isLt), if_neg (by simpa using h0), after3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the case is read off t % 12; the run of that case applies, the invariant hands it the cache and
    the running sum at what the point before left (at anything at the very first point) and takes them back at this
    point's contents; an output block the case does not store goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves0, leaves1, leaves2]
  rw [show (dats m 0 c).owesAt () t.succ = (dats m 0 c).owesAt () t.castSucc from rfl]
  rw [show (dats m 0 c).Φ t.succ = inv m c (t.val + 1) t.isLt from rfl, inv_succ]
  have hN : t.val < 48 := lt_of_lt_of_eq t.isLt (show cfg0.N = 48 from N_0)
  by_cases h0 : t.val % 12 = 0
  · have h1 : ¬t.val % 12 = 11 := by omega
    rw [show (dats m 0 c).leavesExact 3 t = owns (c : Thread nD τ) (ms3 t) fullShare ((dats m 0 c).after 3 t) from by
      unfold Dat.leavesExact; rw [live3_of h0], after3]
    rw [Dat.leavesExact_idle (dats m 0 c) 4 t (idle4_of h1) (noFlush4_of h1)]
    rw [held_first m c t h0 h1]
    unfold posFirst cacheFirst sumFirst; (try dsimp only)
    by_cases hz : t.val = 0
    · rw [inv_castSucc m c t, inv_zero m c _ _ hz, rest_eq]
      iintro ⟨⟨⟨HC, HS⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t) (iblk m c 2 t)).2.2.2 _ Set.univ _)
      isplitl [H0]; · iexact H0
      isplitl [H1]; · iexact H1
      isplitl [H2]; · iexact H2
      isplitl [H3]; · iexists _; iexact H3
      isplitl [H4]; · iexact H4
      isplitl [HC]; · iexact HC
      isplitl [HS]; · iexact HS
      iintro ⟨H0, H1, H2, ⟨%e3, H3⟩, H4, ⟨%ec, HC⟩, ⟨%es, HS⟩⟩
      isplitl [HC HS Hg]
      · isplitl [HC HS]
        · isplitl [HC]
          · unfold owns; iexists _; isplitr
            swap; · iexact HC
            ipureintro; exact View.read_writes_of_cover _ _ _ _ _ (cacheFirst_cover c _ _ _ _ _ _ _ _ _ _ _ _ _ _ _ _ _ _ _ _)
          unfold owns; iexists _; isplitr
          swap; · iexact HS
          ipureintro; exact View.read_writes_of_cover _ _ _ _ _ (sumFirst_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (posFirst_cover c _ _ _ _ _ _ _ _ _ _ _ _ _ _ _ _ _ _ _ _)
      iexists _; iexact H4
    · rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t) (iblk m c 2 t)).2.2.2 _ Set.univ _)
      isplitl [H0]; · iexact H0
      isplitl [H1]; · iexact H1
      isplitl [H2]; · iexact H2
      isplitl [H3]; · iexists _; iexact H3
      isplitl [H4]; · iexact H4
      isplitl [HC]; · iexists _; iexact HC
      isplitl [HS]; · iexists _; iexact HS
      iintro ⟨H0, H1, H2, ⟨%e3, H3⟩, H4, ⟨%ec, HC⟩, ⟨%es, HS⟩⟩
      isplitl [HC HS Hg]
      · isplitl [HC HS]
        · isplitl [HC]
          · unfold owns; iexists _; isplitr
            swap; · iexact HC
            ipureintro; exact View.read_writes_of_cover _ _ _ _ _ (cacheFirst_cover c _ _ _ _ _ _ _ _ _ _ _ _ _ _ _ _ _ _ _ _)
          unfold owns; iexists _; isplitr
          swap; · iexact HS
          ipureintro; exact View.read_writes_of_cover _ _ _ _ _ (sumFirst_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (posFirst_cover c _ _ _ _ _ _ _ _ _ _ _ _ _ _ _ _ _ _ _ _)
      iexists _; iexact H4
  · have hz : t.val ≠ 0 := fun h => h0 (by rw [h])
    by_cases h1 : t.val % 12 = 11
    · rw [show (dats m 0 c).leavesExact 3 t = owns (c : Thread nD τ) (ms3 t) fullShare ((dats m 0 c).after 3 t) from by
        unfold Dat.leavesExact; rw [idle3_of h0, (flush0_3 t).mpr h1], after3]
      rw [show (dats m 0 c).leavesExact 4 t = owns (c : Thread nD τ) (ms4 t) fullShare ((dats m 0 c).after 4 t) from by
        unfold Dat.leavesExact; rw [live4_of h1], after4]
      simp only [before3 m c t h0]
      rw [held_last m c t h0 h1]
      unfold negLast sumLast; (try dsimp only)
      rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [H4]; · iexists _; iexact H4
      isplitl [HC]; · iexact HC
      isplitl [HS]; · iexact HS
      iintro ⟨H0, H1, H2, H3, ⟨%e4, H4⟩, HC, ⟨%es, HS⟩⟩
      isplitl [HC HS Hg]
      · isplitl [HC HS]
        · isplitl [HC]
          · iexact HC
          unfold owns; iexists _; isplitr
          swap; · iexact HS
          ipureintro; exact View.read_writes_of_cover _ _ _ _ _ (sumLast_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (negLast_cover c _ _ _ _ _ _ _ _ _ _ _ _ _ _ _ _ _ _ _ _ _ _)
    · rw [Dat.leavesExact_idle (dats m 0 c) 3 t (idle3_of h0) (noFlush3_of h1)]
      rw [Dat.leavesExact_idle (dats m 0 c) 4 t (idle4_of h1) (noFlush4_of h1)]
      rw [held_middle m c t h0 h1]
      unfold sumMiddle; (try dsimp only)
      rw [inv_castSucc m c t, inv_pos m c _ _ hz]
      iintro ⟨⟨⟨HC, HS⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ (fun h => h0 ((atFirst_iff t).mp h)) (fun h => h1 ((atLast_iff t).mp h)) (iblk m c 0 t) (iblk m c 1 t) (iblk m c 2 t) _ _).2 _ _ Set.univ _)
      isplitl [H0]; · iexact H0
      isplitl [H1]; · iexact H1
      isplitl [H2]; · iexact H2
      isplitl [H3]; · iexact H3
      isplitl [H4]; · iexact H4
      isplitl [HC]; · iexact HC
      isplitl [HS]; · iexact HS
      iintro ⟨H0, H1, H2, H3, H4, HC, ⟨%es, HS⟩⟩
      isplitl [HC HS Hg]
      · isplitl [HC HS]
        · isplitl [HC]
          · iexact HC
          unfold owns; iexists _; isplitr
          swap; · iexact HS
          ipureintro; exact View.read_writes_of_cover _ _ _ _ _ (sumMiddle_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, rest_eq]
  iintro ⟨⟨HC, HS⟩, Hg⟩
  isplitl [HC HS]
  · isplitl [HC]
    · iexists _; iexact HC
    iexists _; iexact HS
  iexact Hg

theorem hout (c : Dev nD) : (dats m 0 c).Φ (Fin.last cfg0.N) ⊢ Pipeline.ΦA spec0 c :=
  inv_out m c _ (by rw [Fin.val_last]; have : cfg0.N = 48 := N_0; omega)

/-! ## The run and the frame -/

set_option backward.isDefEq.respectTransparency.types false in
/-- Every weakly fair execution of @main terminates, and every final state has each array of the pipeline at what the
    proof data says was written back into it and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The contrastive (InfoNCE) loss of an anchor batch against its positives and three views, on the extended reals,
  written twice: as the tiled kernel computes it and as the plain reference does.

  Rows are normalised to unit Euclidean length, with the length clamped below. One side multiplies a row by the
  reciprocal square root of max(|x|², ε²); the other divides it by max(|x|, ε). One side scales by 1/T before the
  inner products and fills the self-pairs with NEG/T; the other fills with NEG and divides by T afterwards.
  One side sums the 12288 keys as 12 tiles of 1024; the other as 3 views of 4096. The tail is common:
  minus the mean over the 4096 rows of log(pos / (pos + neg + δ)).
-/
import Idealize.ShloMosaic.PureOps.Ideal

noncomputable section

namespace Cert.Contrastive

open Idealize.ShloMosaic

/-! ## The constants -/

/-- 1/T, the exact reciprocal of the temperature word 13421773 / 2^26. -/
def invT : EReal := ((67108864 / 13421773 : ℝ) : EReal)
/-- ε², the exact square of the clamp word 2305843 / 2^61. -/
def epsSq : EReal := ((5316911940649 / 5316911983139663491615228241121378304 : ℝ) : EReal)
/-- NEG/T, the self-pair fill already divided by the temperature word. -/
def fillT : EReal := ((-67108864000000000 / 13421773 : ℝ) : EReal)
/-- T, the temperature word (f32 nearest 0.2). -/
def tWord : EReal := Ideal.ofBits .f32 0x3E4CCCCD#32
/-- ε, the clamp word (f32 nearest 1e-12). -/
def epsWord : EReal := Ideal.ofBits .f32 0x2B8CBCCC#32
/-- NEG = -1e9, the self-pair fill. -/
def fillWord : EReal := Ideal.ofBits .f32 0xCE6E6B28#32
/-- δ, the guard under the logarithm (f32 nearest 1e-8). -/
def deltaWord : EReal := Ideal.ofBits .f32 0x322BCC77#32
/-- 4096 as a float word. -/
def rowsWord : EReal := Ideal.ofBits .f32 0x45800000#32

/-! ## Unit rows -/

/-- A row times the reciprocal square root of its clamped squared length. -/
def unitMul (x : Fin 512 → EReal) (d : Fin 512) : EReal :=
  x d * Ideal.rsqrt (max (∑ e : Fin 512, x e * x e) epsSq)

/-- A row divided by its clamped length. -/
def unitDiv (x : Fin 512 → EReal) (d : Fin 512) : EReal :=
  Ideal.div (x d) (max (Ideal.sqrt (∑ e : Fin 512, x e * x e)) epsWord)

/-! ## The two per-row quantities, tiled form -/

/-- Key row `n` of the three views laid end to end: view `n / 4096`, row `n % 4096`. -/
def keyRow (W : Fin 3 → Fin 4096 → Fin 512 → EReal) (n : Fin 12288) : Fin 512 → EReal :=
  W ⟨n.val / 4096, by have := n.isLt; omega⟩ ⟨n.val % 4096, Nat.mod_lt _ (by norm_num)⟩

/-- exp of the scaled inner product of the unit anchor and unit positive rows. -/
def posTiled (A P : Fin 4096 → Fin 512 → EReal) (b : Fin 4096) : EReal :=
  Ideal.exp ((∑ d : Fin 512, unitMul (A b) d * unitMul (P b) d) * invT)

/-- One entry of the similarity table before the exponential: the fill on a self-pair (key row ≡ b mod 4096),
    else the inner product of the scaled unit anchor row with the unit key row. -/
def simTiled (A : Fin 4096 → Fin 512 → EReal) (W : Fin 3 → Fin 4096 → Fin 512 → EReal) (b : Fin 4096) (n : Fin 12288) : EReal :=
  if n.val % 4096 = b.val then fillT
  else ∑ d : Fin 512, (unitMul (A b) d * invT) * unitMul (keyRow W n) d

/-- The sum of exponentials over the keys, as 12 tiles of 1024. -/
def negTiled (A : Fin 4096 → Fin 512 → EReal) (W : Fin 3 → Fin 4096 → Fin 512 → EReal) (b : Fin 4096) : EReal :=
  ∑ j : Fin 12, ∑ c : Fin 1024,
    Ideal.exp (simTiled A W b ⟨j.val * 1024 + c.val, by have := j.isLt; have := c.isLt; omega⟩)

/-! ## The same, plain form -/

def posPlain (A P : Fin 4096 → Fin 512 → EReal) (b : Fin 4096) : EReal :=
  Ideal.exp (Ideal.div (∑ d : Fin 512, unitDiv (A b) d * unitDiv (P b) d) tWord)

def simPlain (A : Fin 4096 → Fin 512 → EReal) (W : Fin 3 → Fin 4096 → Fin 512 → EReal) (b : Fin 4096) (v : Fin 3) (k : Fin 4096) : EReal :=
  if k = b then fillWord else ∑ d : Fin 512, unitDiv (A b) d * unitDiv (W v k) d

def negPlain (A : Fin 4096 → Fin 512 → EReal) (W : Fin 3 → Fin 4096 → Fin 512 → EReal) (b : Fin 4096) : EReal :=
  ∑ v : Fin 3, ∑ k : Fin 4096, Ideal.exp (Ideal.div (simPlain A W b v k) tWord)

/-! ## The common tail -/

/-- Minus the mean over the rows of log(pos / (pos + neg + δ)). -/
def lossOf (pos neg : Fin 4096 → EReal) : EReal :=
  -(Ideal.div (∑ b : Fin 4096, Ideal.log (Ideal.div (pos b) ((pos b + neg b) + deltaWord))) rowsWord)

def lossTiled (A P : Fin 4096 → Fin 512 → EReal) (W : Fin 3 → Fin 4096 → Fin 512 → EReal) : EReal :=
  lossOf (posTiled A P) (negTiled A W)

def lossPlain (A P : Fin 4096 → Fin 512 → EReal) (W : Fin 3 → Fin 4096 → Fin 512 → EReal) : EReal :=
  lossOf (posPlain A P) (negPlain A W)

/-- Every entry is a real number. -/
def Real2 (A : Fin 4096 → Fin 512 → EReal) : Prop := ∀ b d, ∃ r : ℝ, A b d = (r : EReal)
def Real3 (W : Fin 3 → Fin 4096 → Fin 512 → EReal) : Prop := ∀ v k d, ∃ r : ℝ, W v k d = (r : EReal)

end Cert.Contrastive

end
-- ==== Proof.IdealTail.lean ====
/-
  The host operations after the kernel region of the idealized kernel program, as one function of the region's two
  [4096, 1] results p (the positive exponentials) and n (the sums over the keys): minus the mean over the rows of
  log(p / ((p + n) + δ)). The reduction over both axes of a [4096, 1] array into a scalar is the initial value,
  zero, plus the sum over every index; an index of a [4096, 1] array is its row and the column 0, so the sum is the
  sum over the 4096 rows.
-/
import proofs.«128369_j16295105921245_2_alg».proof.KernelIdeal
import proofs.«128369_j16295105921245_2_alg».proof.Proof.Spec
import Idealize.ShloMosaic.PureOps.Ideal.Laws
import Idealize.ShloMosaic.Lib.IdealHost
import Idealize.ShloMosaic.Lib.ValueIdx

noncomputable section

namespace Cert.KernelIdeal.Tail

open Cert.KernelIdeal Idealize.ShloMosaic Idealize.ShloMosaic.ValueIdx

variable [Facts]
open Facts₀ Facts

/-- The program's operations after the kernel region, composed. -/
def tail (p n : (⟨S4096x1, .f32⟩ : BufTy).Contents (Elt Ideal)) : (⟨S_, .f32⟩ : BufTy).Contents (Elt Ideal) :=
  Host.negf (F := Ideal) (s := S_) (φ := .f32)
    (Host.divf (F := Ideal) (s := S_) (φ := .f32)
      (Host.reduceAdd (F := Ideal) (s := S4096x1) (φ := .f32)
        (Host.log (F := Ideal) (s := S4096x1) (φ := .f32)
          (Host.divf (F := Ideal) (s := S4096x1) (φ := .f32) p
            (addf (F := Ideal) (s := S4096x1) (φ := .f32) (addf (F := Ideal) (s := S4096x1) (φ := .f32) p n)
              (broadcastInDim S4096x1 ![] bcast_S_S4096x1 (constant (F := Ideal) S_ .f32 0x322BCC77#32)))))
        (constant (F := Ideal) S_ .f32 0x00000000#32) reducesTo_S4096x1_S_d0_1 h_S_)
      (constant (F := Ideal) S_ .f32 0x45800000#32))

/-- A sum over the indices of a [4096, 1] array is the sum over its rows. -/
theorem sum_rows (f : S4096x1.Idx → EReal) : ∑ i : S4096x1.Idx, f i = ∑ b : Fin 4096, f (ix2 b 0) := by
  rw [sum_idx2]
  exact Finset.sum_congr rfl fun b _ => Fin.sum_univ_one _

/-- The composed tail is the common tail of the loss, read off the two results' rows. -/
theorem tail_eq (p n : (⟨S4096x1, .f32⟩ : BufTy).Contents (Elt Ideal)) :
    tail p n = fun _ => Cert.Contrastive.lossOf (fun b => p (ix2 b 0)) (fun b => n (ix2 b 0)) := by
  funext j
  show -(Ideal.div (Ideal.hostReduceAdd reducesTo_S4096x1_S_d0_1
      (fun i => Ideal.log (Ideal.div (p i) ((p i + n i) + Ideal.ofBits .f32 0x322BCC77#32)))
      (Ideal.ofBits .f32 0x00000000#32) j) (Ideal.ofBits .f32 0x45800000#32)) = _
  rw [Ideal.hostReduceAdd_total reducesTo_S4096x1_S_d0_1 (fun b => b.elim0), Ideal.ofBits_zero_f32, zero_add, sum_rows]
  rfl

end Cert.KernelIdeal.Tail

end
-- ==== Proof.IdealLoss.lean ====
/-
  The kernel's result: the host lines after the region apply the common tail — minus the mean of log(pos / (pos + neg + δ)) —
  to the two arrays the region wrote.
-/
import proofs.«128369_j16295105921245_2_alg».proof.Proof.IdealFrame
import proofs.«128369_j16295105921245_2_alg».proof.Proof.IdealTail

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the host lines after the region leave in the result buffer: the tail of the two output arrays. -/
theorem result_eq (c : Dev nD) :
    Pipeline.afterTail₀ cfgs (dats (F := Ideal) m) 0 (V0 m) [hostOps1] c main_v9
      = Cert.KernelIdeal.Tail.tail ((dats (F := Ideal) m 0 c).arrAt 3 cfg0.N) ((dats (F := Ideal) m 0 c).arrAt 4 cfg0.N) := by
  unfold Pipeline.afterTail₀
  show StableHlo.after hostOps1 _ (Proc.devRef .tc main_v9) = _
  after_results
  exact congrArg₂ Cert.KernelIdeal.Tail.tail
    (Pipeline.withArrays_arr (cfgs 0).spec launch0.win.arr_inj c (V0 m c) (fun w => (dats (F := Ideal) m 0 c).arrAt w (cfgs 0).N) 3)
    (Pipeline.withArrays_arr (cfgs 0).spec launch0.win.arr_inj c (V0 m c) (fun w => (dats (F := Ideal) m 0 c).arrAt w (cfgs 0).N) 4)

end Cert.KernelIdeal.Body

end
-- ==== Proof.IdealBlocks.lean ====
/-
  How the blocks of the five windows sit in their arrays, for the idealized kernel.

  The grid has 4 row blocks and 12 key tiles; point t is row block t / 12, key tile t % 12. The anchor, the positive
  and the two result windows move with the row block; the key window moves with the key tile. A block's coordinate
  in its array is always the block index times the block extent plus the coordinate inside the block. The key array
  is the three views laid end to end: its row n is row n % 4096 of view n / 4096. The result blocks written back are
  those of the last key tile of each row block, and they cover every row.
-/
import proofs.«128369_j16295105921245_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The index maps, decided over the 48 grid points -/

theorem idx0 : ∀ t : Fin cfg0.N, win0_0.index t (0 : Fin 2) = t.val / 12 ∧ win0_0.index t (1 : Fin 2) = 0 :=
  (by decide +kernel : ∀ t : Fin grid0.N, _)
theorem idx1 : ∀ t : Fin cfg0.N, win0_1.index t (0 : Fin 2) = t.val / 12 ∧ win0_1.index t (1 : Fin 2) = 0 :=
  (by decide +kernel : ∀ t : Fin grid0.N, _)
theorem idx2 : ∀ t : Fin cfg0.N, win0_2.index t (0 : Fin 2) = t.val % 12 ∧ win0_2.index t (1 : Fin 2) = 0 :=
  (by decide +kernel : ∀ t : Fin grid0.N, _)
theorem idx3 : ∀ t : Fin cfg0.N, win0_3.index t (0 : Fin 2) = t.val / 12 ∧ win0_3.index t (1 : Fin 2) = 0 :=
  (by decide +kernel : ∀ t : Fin grid0.N, _)
theorem idx4 : ∀ t : Fin cfg0.N, win0_4.index t (0 : Fin 2) = t.val / 12 ∧ win0_4.index t (1 : Fin 2) = 0 :=
  (by decide +kernel : ∀ t : Fin grid0.N, _)

/-- Point t is row block t / 12, key tile t % 12. -/
theorem coords_eq : ∀ t : Fin cfg0.N, ((grid0.coords t) 0).val = t.val / 12 ∧ ((grid0.coords t) 1).val = t.val % 12 :=
  (by decide +kernel : ∀ t : Fin grid0.N, _)

theorem lt48 (t : Fin cfg0.N) : t.val < 48 := lt_of_lt_of_eq t.isLt (show cfg0.N = 48 from N_0)

/-! ## An input block read at an entry -/

theorem iblk0_apply (c : Dev nD) (t : Fin cfg0.N) (r : Fin 1024) (d : Fin 512) :
    iblk m c 0 t (ix2 r d)
      = V m c main_arg0 (ix2 ⟨(t.val / 12) * 1024 + r.val, by have := lt48 t; have := r.isLt; omega⟩ d) := by
  unfold iblk
  show V m c main_arg0 (((cfg0.win 0).blk t).view.emb (ix2 r d)) = V m c main_arg0 _
  refine congrArg _ (funext fun a => Fin.ext ?_)
  obtain ⟨e0, e1⟩ := idx0 t
  match a with
  | ⟨0, _⟩ => show win0_0.index t (0 : Fin 2) * 1024 + 1 * r.val = t.val / 12 * 1024 + r.val; omega
  | ⟨1, _⟩ => show win0_0.index t (1 : Fin 2) * 512 + 1 * d.val = d.val; omega

theorem iblk1_apply (c : Dev nD) (t : Fin cfg0.N) (r : Fin 1024) (d : Fin 512) :
    iblk m c 1 t (ix2 r d)
      = V m c main_arg1 (ix2 ⟨(t.val / 12) * 1024 + r.val, by have := lt48 t; have := r.isLt; omega⟩ d) := by
  unfold iblk
  show V m c main_arg1 (((cfg0.win 1).blk t).view.emb (ix2 r d)) = V m c main_arg1 _
  refine congrArg _ (funext fun a => Fin.ext ?_)
  obtain ⟨e0, e1⟩ := idx1 t
  match a with
  | ⟨0, _⟩ => show win0_1.index t (0 : Fin 2) * 1024 + 1 * r.val = t.val / 12 * 1024 + r.val; omega
  | ⟨1, _⟩ => show win0_1.index t (1 : Fin 2) * 512 + 1 * d.val = d.val; omega

theorem iblk2_apply (c : Dev nD) (t : Fin cfg0.N) (r : Fin 1024) (d : Fin 512) :
    iblk m c 2 t (ix2 r d)
      = V m c main_v0 (ix2 ⟨(t.val % 12) * 1024 + r.val, by have := lt48 t; have := r.isLt; omega⟩ d) := by
  unfold iblk
  show V m c main_v0 (((cfg0.win 2).blk t).view.emb (ix2 r d)) = V m c main_v0 _
  refine congrArg _ (funext fun a => Fin.ext ?_)
  obtain ⟨e0, e1⟩ := idx2 t
  match a with
  | ⟨0, _⟩ => show win0_2.index t (0 : Fin 2) * 1024 + 1 * r.val = t.val % 12 * 1024 + r.val; omega
  | ⟨1, _⟩ => show win0_2.index t (1 : Fin 2) * 512 + 1 * d.val = d.val; omega

/-! ## The arrays as the region finds them -/

/-- The anchor array is as launched. -/
theorem V_arg0 (c : Dev nD) : V m c main_arg0 = m ((c : Thread nD τ).loc main_arg0) := V_main_arg0 m c
/-- The positive array is as launched. -/
theorem V_arg1 (c : Dev nD) : V m c main_arg1 = m ((c : Thread nD τ).loc main_arg1) := V_main_arg1 m c

/-- The key array is the three views laid end to end. -/
theorem V_views (c : Dev nD) :
    (V m c main_v0 : S12288x512.Idx → EReal)
      = shapeCast S12288x512 (m ((c : Thread nD τ).loc main_arg2)) shapeCasts_S3x4096x512_S12288x512 := by
  show StableHlo.after hostOps0 (fun b => m (c, b)) (Proc.devRef .tc main_v0) = _
  after_results
  rfl

/-- Row n of the key array is row n % 4096 of view n / 4096. -/
theorem V_views_apply (c : Dev nD) (n : Fin 12288) (d : Fin 512) :
    V m c main_v0 (ix2 n d)
      = m ((c : Thread nD τ).loc main_arg2)
          (ix3 ⟨n.val / 4096, by have := n.isLt; omega⟩ ⟨n.val % 4096, Nat.mod_lt _ (by norm_num)⟩ d) := by
  rw [V_views]
  refine shapeCast_apply (s := S3x4096x512) (t := S12288x512) _ _ _ _ ?_
  show (S3x4096x512.rowMajor (ix3 (⟨n.val / 4096, by have := n.isLt; omega⟩ : Fin 3)
      (⟨n.val % 4096, Nat.mod_lt _ (by norm_num)⟩ : Fin 4096) d)).val = (S12288x512.rowMajor (ix2 n d)).val
  rw [Shape.rowMajor_val_three, Shape.rowMajor_val_two]
  show ((n.val / 4096) * 4096 + n.val % 4096) * 512 + d.val = n.val * 512 + d.val
  have := Nat.div_add_mod n.val 4096
  omega

/-! ## The result windows: a block read at an entry, and the cover -/

/-- A block of window 3's array read at an entry: row block t / 12. -/
theorem oblk3_apply (G : (⟨S4096x1, .f32⟩ : BufTy).Contents (Elt Ideal)) (t : Fin cfg0.N) (r : Fin 1024) (u : Fin 1) :
    ((cfg0.win 3).blk t).view.read (Elt Ideal) G (ix2 r u)
      = G (ix2 ⟨(t.val / 12) * 1024 + r.val, by have := lt48 t; have := r.isLt; omega⟩ u) := by
  show G (((cfg0.win 3).blk t).view.emb (ix2 r u)) = G _
  refine congrArg _ (funext fun a => Fin.ext ?_)
  obtain ⟨e0, e1⟩ := idx3 t
  match a with
  | ⟨0, _⟩ => show win0_3.index t (0 : Fin 2) * 1024 + 1 * r.val = t.val / 12 * 1024 + r.val; omega
  | ⟨1, _⟩ => show win0_3.index t (1 : Fin 2) * 1 + 1 * u.val = u.val; omega

/-- A block of window 4's array read at an entry: row block t / 12. -/
theorem oblk4_apply (G : (⟨S4096x1, .f32⟩ : BufTy).Contents (Elt Ideal)) (t : Fin cfg0.N) (r : Fin 1024) (u : Fin 1) :
    ((cfg0.win 4).blk t).view.read (Elt Ideal) G (ix2 r u)
      = G (ix2 ⟨(t.val / 12) * 1024 + r.val, by have := lt48 t; have := r.isLt; omega⟩ u) := by
  show G (((cfg0.win 4).blk t).view.emb (ix2 r u)) = G _
  refine congrArg _ (funext fun a => Fin.ext ?_)
  obtain ⟨e0, e1⟩ := idx4 t
  match a with
  | ⟨0, _⟩ => show win0_4.index t (0 : Fin 2) * 1024 + 1 * r.val = t.val / 12 * 1024 + r.val; omega
  | ⟨1, _⟩ => show win0_4.index t (1 : Fin 2) * 1 + 1 * u.val = u.val; omega

/-- An index of window 3's array is in point t's block iff each coordinate is in the block's range on its axis. -/
theorem mem_blk3 (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v1_0).slice (win0_3.rect t)).set ↔ _
  rw [View.set_slice_whole, Rect.mem_set_unit]
  exact Iff.rfl

/-- The same for window 4. -/
theorem mem_blk4 (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v1_1).slice (win0_4.rect t)).set ↔ _
  rw [View.set_slice_whole, Rect.mem_set_unit]
  exact Iff.rfl

/-- The point that writes back the block holding row b: the last key tile of row block b / 1024. -/
theorem last_point (b : ℕ) (hb : b < 4096) : ∃ t : Fin cfg0.N, t.val = 12 * (b / 1024) + 11 :=
  ⟨⟨12 * (b / 1024) + 11, by rw [show cfg0.N = 48 from N_0]; omega⟩, rfl⟩

/-- THE COVER of window 3: every index of its array is in the block of a point that writes back. -/
theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := last_point (i 0).val hi0
  refine ⟨t, (flush0_3 t).mpr (by omega), ?_⟩
  rw [mem_blk3]
  obtain ⟨e0, e1⟩ := idx3 t
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1 ≤ (i 1).val ∧ (i 1).val < win0_3.index t (1 : Fin 2) * 1 + 1
    omega

/-- THE COVER of window 4. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ := last_point (i 0).val hi0
  refine ⟨t, (flush0_4 t).mpr (by omega), ?_⟩
  rw [mem_blk4]
  obtain ⟨e0, e1⟩ := idx4 t
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

end Cert.KernelIdeal.Blocks

end
-- ==== Proof.IdealPieces.lean ====
/-
  What each case's stores leave, as the body's arithmetic: one pure term of the blocks the point loads. The positive
  exponentials and the cache are functions of the anchor (and positive) block alone; the running sum after a tile is the
  running sum before it plus that tile's row sums of exponentials, where the first tile starts from zero.
-/
import proofs.«128369_j16295105921245_2_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem posFirst_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) :
    posFirst c i arg2 harg2 arg3 harg3 arg4 harg4 arg5 harg5 arg6 harg6 arg7 harg7 arg8 harg8 hc0 hc1 x0 x1 x2 = k0_pay3 x0 x1 := by
  have hz : (![0, 0] : Fin 2 → ℕ) = fun _ => 0 := by funext a; fin_cases a <;> rfl
  unfold posFirst
  rw [View.read_writes_eq_canon _ _ _ (posFirst_cover c i arg2 harg2 arg3 harg3 arg4 harg4 arg5 harg5 arg6 harg6 arg7 harg7 arg8 harg8 hc0 hc1 x0 x1 x2)]
  unfold runFirst
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

theorem cacheFirst_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) :
    cacheFirst c i arg2 harg2 arg3 harg3 arg4 harg4 arg5 harg5 arg6 harg6 arg7 harg7 arg8 harg8 hc0 hc1 x0 x1 x2 = k0_pay4 x0 := by
  have hz : (![0, 0] : Fin 2 → ℕ) = fun _ => 0 := by funext a; fin_cases a <;> rfl
  unfold cacheFirst
  rw [View.read_writes_eq_canon _ _ _ (cacheFirst_cover c i arg2 harg2 arg3 harg3 arg4 harg4 arg5 harg5 arg6 harg6 arg7 harg7 arg8 harg8 hc0 hc1 x0 x1 x2)]
  unfold runFirst
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

theorem sumFirst_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : AtFirst i) (hc1 : ¬AtLast i) (x0 x1 x2 : Vec F S1024x512 .f32) :
    sumFirst c i arg2 harg2 arg3 harg3 arg4 harg4 arg5 harg5 arg6 harg6 arg7 harg7 arg8 harg8 hc0 hc1 x0 x1 x2 = k0_pay1 (k0_pay6 (k0_pay4 x0) x2) (k0_pay7 i) (k0_pay8 (F := F)) (k0_pay5 (F := F)) := by
  have hz : (![0, 0] : Fin 2 → ℕ) = fun _ => 0 := by funext a; fin_cases a <;> rfl
  unfold sumFirst
  rw [View.read_writes_eq_canon _ _ _ (sumFirst_cover c i arg2 harg2 arg3 harg3 arg4 harg4 arg5 harg5 arg6 harg6 arg7 harg7 arg8 harg8 hc0 hc1 x0 x1 x2)]
  unfold runFirst
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

theorem sumMiddle_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : ¬AtLast i) (x0 x1 x2 : Vec F S1024x512 .f32) (xc : Vec F S1024x512 .bf16) (xs : Vec F S1024x1 .f32) :
    sumMiddle c i arg2 harg2 arg3 harg3 arg4 harg4 arg5 harg5 arg6 harg6 arg7 harg7 arg8 harg8 hc0 hc1 x0 x1 x2 xc xs = k0_pay1 (k0_pay6 xc x2) (k0_pay7 i) (k0_pay8 (F := F)) xs := by
  have hz : (![0, 0] : Fin 2 → ℕ) = fun _ => 0 := by funext a; fin_cases a <;> rfl
  unfold sumMiddle
  rw [View.read_writes_eq_canon _ _ _ (sumMiddle_cover c i arg2 harg2 arg3 harg3 arg4 harg4 arg5 harg5 arg6 harg6 arg7 harg7 arg8 harg8 hc0 hc1 x0 x1 x2 xc xs)]
  unfold runMiddle
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

theorem negLast_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) :
    negLast c i arg2 harg2 arg3 harg3 arg4 harg4 arg5 harg5 arg6 harg6 arg7 harg7 arg8 harg8 hc0 hc1 x0 x1 x2 xc xs = k0_pay1 (k0_pay6 xc x2) (k0_pay7 i) (k0_pay8 (F := F)) xs := by
  have hz : (![0, 0] : Fin 2 → ℕ) = fun _ => 0 := by funext a; fin_cases a <;> rfl
  unfold negLast
  rw [View.read_writes_eq_canon _ _ _ (negLast_cover c i arg2 harg2 arg3 harg3 arg4 harg4 arg5 harg5 arg6 harg6 arg7 harg7 arg8 harg8 hc0 hc1 x0 x1 x2 xc xs)]
  unfold runLast
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

theorem sumLast_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .bf16) (harg7 : arg7.IsWhole) (arg8 : Memref sig .tc .vmem S1024x1 .f32) (harg8 : arg8.IsWhole) (hc0 : ¬AtFirst i) (hc1 : AtLast i) (x0 x1 x2 : Vec F S1024x512 .f32) (xc : Vec F S1024x512 .bf16) (xs : Vec F S1024x1 .f32) :
    sumLast c i arg2 harg2 arg3 harg3 arg4 harg4 arg5 harg5 arg6 harg6 arg7 harg7 arg8 harg8 hc0 hc1 x0 x1 x2 xc xs = k0_pay1 (k0_pay6 xc x2) (k0_pay7 i) (k0_pay8 (F := F)) xs := by
  have hz : (![0, 0] : Fin 2 → ℕ) = fun _ => 0 := by funext a; fin_cases a <;> rfl
  unfold sumLast
  rw [View.read_writes_eq_canon _ _ _ (sumLast_cover c i arg2 harg2 arg3 harg3 arg4 harg4 arg5 harg5 arg6 harg6 arg7 harg7 arg8 harg8 hc0 hc1 x0 x1 x2 xc xs)]
  unfold runLast
  dsimp only
  sl_unfold_words
  rw [View.canon_cons_unit_zero hz]
  simp only [View.readAt_eq_ld, harg2.read_unread, harg3.read_unread, harg4.read_unread, harg7.read_unread, harg8.read_unread,
    View.ld_unit_zero (S := S1024x512) hz, View.ld_unit_zero (S := S1024x1) hz, View.readCov_unit_zero (S := S1024x512) _ hz, View.readCov_unit_zero (S := S1024x1) _ hz]

end Cert.KernelIdeal.Body

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.IdealPayloads.lean ====
/-
  The arithmetic of the idealized kernel's body, read at one entry of each block it stores.

  A block row is normalised by multiplying it with the reciprocal square root of its clamped squared length; the
  positive term is the exponential of the scaled inner product of two unit rows; the stored anchor block is the unit
  row times the scale; the running sum starts from zero; and the fill block is the scaled fill constant everywhere.
  Each statement fixes the coordinates (a row, a lane, the unit coordinate of a column) and says what extended real
  the payload holds there, in the vocabulary of the shared specification.
-/
import proofs.«128369_j16295105921245_2_alg».proof.Proof.Gen.KernelIdeal.Skeleton
import proofs.«128369_j16295105921245_2_alg».proof.Proof.Spec
import proofs.«128369_j16295105921245_2_alg».proof.Proof.LibLaneEntry
import proofs.«128369_j16295105921245_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Cert.Contrastive Idealize.ShloMosaic Idealize.ShloMosaic.ValueIdx

/-! ## The named constants at the extended reals -/

/-- The clamp under the reciprocal square root is the exact square of the clamp word. -/
theorem named_epsSq : Named.named (F := Ideal) κ "eps_norm_sq" (φ := .f32) 0x179ABE15#32 = epsSq :=
  IdealRules.named_const.ideal_named_scalar _ _ _ _ rfl

/-- The scale is the exact reciprocal of the temperature word. -/
theorem named_invT : Named.named (F := Ideal) κ "inv_temperature" (φ := .f32) 0x40A00000#32 = invT :=
  IdealRules.named_const.ideal_named_scalar _ _ _ _ rfl

/-- The fill is the fill word divided by the temperature word, exactly. -/
theorem named_fillT : Named.named (F := Ideal) κ "neg_fill_scaled" (φ := .f32) 0xCF9502F9#32 = fillT :=
  IdealRules.named_const.ideal_named_scalar _ _ _ _ rfl

/-- Row `r` of a 1024 × 512 block. -/
def rowOf (x : S1024x512.Idx → EReal) (r : Fin 1024) : Fin 512 → EReal := fun d => x (ix2 r d)

/-! ## The fill block and the initial running sum -/

/-- The fill block holds the scaled fill everywhere. -/
theorem pay8_apply (j : S1024x1024.Idx) : k0_pay8 (F := Ideal) j = fillT :=
  named_fillT

/-- The running sum starts from zero. -/
theorem pay5_apply (r : Fin 1024) (u : Fin 1) : k0_pay5 (F := Ideal) (ix2 r u) = 0 := by
  unfold k0_pay5
  rw [shapeCast_self]
  exact Ideal.ofBits_zero_f32

/-! ## A unit row -/

/-- The squared length of row `r`, as the lane sum of the squared block. -/
theorem sqLen_apply (x : FVec Ideal S1024x512 .f32) (r : Fin 1024) :
    multiReduction .add [1] S1024 (mulf x x) 0x00000000#32 reduces_S1024x512_S1024 (.inl rfl) rfl (ix1 r)
      = ∑ e : Fin 512, x (ix2 r e) * x (ix2 r e) :=
  Cert.LaneEntry.laneSum (mulf x x) _ _ _ r

/-- The column of reciprocal lengths: at row `r`, the reciprocal square root of the row's squared length clamped
    below by the squared clamp. -/
theorem recipLen_apply (x : FVec Ideal S1024x512 .f32) (r : Fin 1024) (u : Fin 1) :
    rsqrt (maximumf
        (shapeCast S1024x1
          (multiReduction .add [1] S1024 (mulf x x) 0x00000000#32 reduces_S1024x512_S1024 (.inl rfl) rfl)
          shapeCasts_S1024_S1024x1)
        (broadcast S1024x1 (Named.named (F := Ideal) κ "eps_norm_sq" (φ := .f32) 0x179ABE15#32))) (ix2 r u)
      = Ideal.rsqrt (max (∑ e : Fin 512, x (ix2 r e) * x (ix2 r e)) epsSq) := by
  show Ideal.rsqrt (max
      (shapeCast S1024x1
        (multiReduction .add [1] S1024 (mulf x x) 0x00000000#32 reduces_S1024x512_S1024 (.inl rfl) rfl)
        shapeCasts_S1024_S1024x1 (ix2 r u))
      (Named.named (F := Ideal) κ "eps_norm_sq" (φ := .f32) 0x179ABE15#32)) = _
  rw [named_epsSq]
  exact congrArg (fun s => Ideal.rsqrt (max s epsSq))
    ((Cert.ColumnLayout.shapeCast_a_a1_apply _ _ r u).trans (sqLen_apply x r))

/-- The kernel's normalisation of a block, read at `(r, d)`: the unit row's entry. -/
theorem unitBlock_apply (x : FVec Ideal S1024x512 .f32) (r : Fin 1024) (d : Fin 512) :
    mulf x (broadcastTo S1024x512
        (rsqrt (maximumf
          (shapeCast S1024x1
            (multiReduction .add [1] S1024 (mulf x x) 0x00000000#32 reduces_S1024x512_S1024 (.inl rfl) rfl)
            shapeCasts_S1024_S1024x1)
          (broadcast S1024x1 (Named.named (F := Ideal) κ "eps_norm_sq" (φ := .f32) 0x179ABE15#32))))
        broadcasts_S1024x1_S1024x512) (ix2 r d)
      = unitMul (rowOf x r) d :=
  congrArg (fun s => x (ix2 r d) * s)
    ((Cert.ColumnLayout.broadcastTo_a1_ab_apply _ _ r d).trans (recipLen_apply x r 0))

/-- The normalised anchor block: row `r` divided by its clamped length, as a product. -/
theorem pay2_apply (x : Vec Ideal S1024x512 .f32) (r : Fin 1024) (d : Fin 512) :
    k0_pay2 (F := Ideal) x (ix2 r d) = unitMul (rowOf x r) d :=
  unitBlock_apply x r d

/-! ## The stored anchor block and the positive term -/

/-- The stored anchor block: the unit row times the scale (the narrowing to the storage format is the identity on
    the extended reals). -/
theorem pay4_apply (x0 : Vec Ideal S1024x512 .f32) (r : Fin 1024) (d : Fin 512) :
    k0_pay4 (F := Ideal) x0 (ix2 r d) = unitMul (rowOf x0 r) d * invT := by
  unfold k0_pay4
  rw [shapeCast_self]
  show k0_pay2 (F := Ideal) x0 (ix2 r d) * Named.named (F := Ideal) κ "inv_temperature" (φ := .f32) 0x40A00000#32 = _
  rw [pay2_apply, named_invT]

/-- The lane sum of the product of the two normalised blocks at row `r`: the inner product of the two unit rows. -/
theorem unitDot_apply (x0 x1 : FVec Ideal S1024x512 .f32) (r : Fin 1024) :
    multiReduction .add [1] S1024
        (mulf (k0_pay2 (F := Ideal) x0)
          (mulf x1 (broadcastTo S1024x512
            (rsqrt (maximumf
              (shapeCast S1024x1
                (multiReduction .add [1] S1024 (mulf x1 x1) 0x00000000#32 reduces_S1024x512_S1024 (.inl rfl) rfl)
                shapeCasts_S1024_S1024x1)
              (broadcast S1024x1 (Named.named (F := Ideal) κ "eps_norm_sq" (φ := .f32) 0x179ABE15#32))))
            broadcasts_S1024x1_S1024x512)))
        0x00000000#32 reduces_S1024x512_S1024 (.inl rfl) rfl (ix1 r)
      = ∑ d : Fin 512, unitMul (rowOf x0 r) d * unitMul (rowOf x1 r) d :=
  (Cert.LaneEntry.laneSum _ _ _ _ r).trans (Finset.sum_congr rfl fun d _ =>
    congrArg₂ (· * ·) (pay2_apply x0 r d) (unitBlock_apply x1 r d))

/-- The positive term: the exponential of the scaled inner product of the unit anchor row and the unit positive
    row. -/
theorem pay3_apply (x0 x1 : Vec Ideal S1024x512 .f32) (r : Fin 1024) (u : Fin 1) :
    k0_pay3 (F := Ideal) x0 x1 (ix2 r u)
      = Ideal.exp ((∑ d : Fin 512, unitMul (rowOf x0 r) d * unitMul (rowOf x1 r) d) * invT) := by
  unfold k0_pay3
  show Ideal.exp (shapeCast S1024x1 _ shapeCasts_S1024_S1024x1 (ix2 r u)
      * Named.named (F := Ideal) κ "inv_temperature" (φ := .f32) 0x40A00000#32) = _
  rw [named_invT]
  exact congrArg (fun s => Ideal.exp (s * invT))
    ((Cert.ColumnLayout.shapeCast_a_a1_apply _ _ r u).trans (unitDot_apply x0 x1 r))

end Cert.KernelIdeal.Payload

end
-- ==== Proof.IdealMatmulMask.lean ====
/-
  Three pure values of the tiled kernel's body, read at an entry, at the extended reals: the running sum of
  exponentials of one tile of the similarity table, that tile itself as a matrix product of the scaled unit anchor
  rows with the unit key rows, and the mask of the self-pairs of the tile.
-/
import proofs.«128369_j16295105921245_2_alg».proof.Proof.Gen.KernelIdeal.Skeleton
import proofs.«128369_j16295105921245_2_alg».proof.Proof.Spec
import proofs.«128369_j16295105921245_2_alg».proof.Proof.LibLaneEntry
import proofs.«128369_j16295105921245_2_alg».proof.Proof.LibColumnLayout

noncomputable section

namespace Cert.KernelIdeal.Payload

open Cert.KernelIdeal Cert.KernelIdeal.Gen Cert.Contrastive Idealize.ShloMosaic Idealize.ShloMosaic.ValueIdx

/-! ## The running sum of a tile's exponentials -/

/-- Row `r` of the updated running sum: the old value plus the sum over the tile's 1024 columns of the exponential of
    the entry, the fill where the mask is set. -/
theorem pay1_apply (v16 : FVec Ideal S1024x1024 .f32) (v37 : IVec S1024x1024 1) (v38 : FVec Ideal S1024x1024 .f32)
    (v41 : Vec Ideal S1024x1 .f32) (r : Fin 1024) (u : Fin 1) :
    k0_pay1 (F := Ideal) v16 v37 v38 v41 (ix2 r u)
      = v41 (ix2 r u)
        + ∑ cc : Fin 1024, Ideal.exp (if v37 (ix2 r cc) = 1#1 then v38 (ix2 r cc) else v16 (ix2 r cc)) := by
  unfold k0_pay1
  refine (shapeCast_apply _ shapeCasts_S1024x1_S1024x1 (ix2 r u) (ix2 r u) rfl).trans ?_
  show v41 (ix2 r u) + shapeCast S1024x1 _ shapeCasts_S1024_S1024x1 (ix2 r u) = _
  refine congrArg (v41 (ix2 r u) + ·) ?_
  refine (Cert.ColumnLayout.shapeCast_a_a1_apply _ shapeCasts_S1024_S1024x1 r u).trans ?_
  refine (Cert.LaneEntry.laneSum _ _ _ _ r).trans ?_
  rfl

/-! ## A tile of the similarity table: a matrix product into a zero accumulator -/

theorem lhs6_0 (j : S1024x1024.Idx) (q : dot_S1024x512_S512x1024_S1024x1024_1_0_0_1_n_n.contr.Idx) : (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs6_1 (j : S1024x1024.Idx) (q : dot_S1024x512_S512x1024_S1024x1024_1_0_0_1_n_n.contr.Idx) : (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs6_0 (j : S1024x1024.Idx) (q : dot_S1024x512_S512x1024_S1024x1024_1_0_0_1_n_n.contr.Idx) : (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs6_1 (j : S1024x1024.Idx) (q : dot_S1024x512_S512x1024_S1024x1024_1_0_0_1_n_n.contr.Idx) : (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product into the zero accumulator, at entry (r, c): the sum over the contracted axis of the products. -/
theorem matmul6_apply (a : FVec Ideal S1024x512 .bf16) (b : FVec Ideal S512x1024 .bf16) (r cc : Fin 1024) :
    matmul dot_S1024x512_S512x1024_S1024x1024_1_0_0_1_n_n none a b (constant (F := Ideal) S1024x1024 .f32 0x00000000#32) (ix2 r cc)
      = ∑ d : Fin 512, a (ix2 r d) * b (ix2 d cc) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r cc) ((contrEquiv1 dot_S1024x512_S512x1024_S1024x1024_1_0_0_1_n_n 512 rfl rfl).symm k) = ix2 r k := funext fun ax => Fin.ext (by
    match ax with
    | ⟨0, _⟩ => exact lhs6_0 _ _
    | ⟨1, _⟩ => exact (lhs6_1 _ _).trans hk)
  have er : dot_S1024x512_S512x1024_S1024x1024_1_0_0_1_n_n.rhsIdx (ix2 r cc) ((contrEquiv1 dot_S1024x512_S512x1024_S1024x1024_1_0_0_1_n_n 512 rfl rfl).symm k) = ix2 k cc := funext fun ax => Fin.ext (by
    match ax with
    | ⟨0, _⟩ => exact (rhs6_0 _ _).trans hk
    | ⟨1, _⟩ => exact rhs6_1 _ _)
  rw [el, er]

/-- The named clamp under the square root is the exact square of the reference's clamp word. -/
theorem eps_named : Named.named (F := Ideal) κ "eps_norm_sq" (φ := .f32) 0x179ABE15#32 = epsSq :=
  IdealRules.named_const.ideal_named_scalar _ _ _ _ rfl

/-- Entry (r, c) of the tile: the inner product of row `r` of the left block with the unit row `c` of the key block. -/
theorem pay6_apply (xc : Vec Ideal S1024x512 .bf16) (x2 : Vec Ideal S1024x512 .f32) (r cc : Fin 1024) :
    k0_pay6 (F := Ideal) xc x2 (ix2 r cc) = ∑ d : Fin 512, xc (ix2 r d) * unitMul (fun e => x2 (ix2 cc e)) d := by
  have h5 : shapeCast S1024x512 x2 shapeCasts_S1024x512_S1024x512 = x2 :=
    funext fun j => shapeCast_apply x2 _ j j rfl
  unfold k0_pay6
  simp only [h5]
  refine (matmul6_apply _ _ r cc).trans (Finset.sum_congr rfl fun d _ => congrArg (xc (ix2 r d) * ·) ?_)
  refine (transpose_ix2_apply _ transposes_S1024x512_p1_0_S512x1024 d cc).trans ?_
  show x2 (ix2 cc d) * broadcastTo S1024x512 _ broadcasts_S1024x1_S1024x512 (ix2 cc d) = _
  refine congrArg (x2 (ix2 cc d) * ·) ?_
  refine (Cert.ColumnLayout.broadcastTo_a1_ab_apply _ broadcasts_S1024x1_S1024x512 cc d).trans ?_
  show Ideal.rsqrt (max (shapeCast S1024x1 _ shapeCasts_S1024_S1024x1 (ix2 cc (0 : Fin 1)))
    (Named.named (F := Ideal) κ "eps_norm_sq" (φ := .f32) 0x179ABE15#32)) = _
  refine congrArg Ideal.rsqrt (congr (congrArg max ?_) eps_named)
  refine (Cert.ColumnLayout.shapeCast_a_a1_apply _ shapeCasts_S1024_S1024x1 cc 0).trans ?_
  refine (Cert.LaneEntry.laneSum _ _ _ _ cc).trans ?_
  rfl

/-! ## The mask of the self-pairs of a tile -/

/-- The first row of row block `a`, as a 32-bit word. -/
theorem rowBase_word : ∀ a : Fin 4, Scalar.muli (BitVec.ofNat 32 a.val) 1024#32 = BitVec.ofNat 32 (a.val * 1024) := by
  decide

/-- The first key of a tile reduced modulo 4096: the truncated remainder of the word `1024 · tile` by 4096, with
    the sign correction of a floored remainder, which never fires on these words. -/
def keyBase (arg1 : BitVec 32) : BitVec 32 :=
  let v18 : BitVec 32 := Scalar.muli arg1 1024#32
  let v19 : BitVec 1 := Scalar.cmpi .eq 4096#32 0#32
  let v20 : BitVec 32 := Scalar.select v19 1#32 4096#32
  let v21 : BitVec 32 := Scalar.remsi v18 v20
  let v22 : BitVec 1 := Scalar.cmpi .ne v21 0#32
  let v23 : BitVec 1 := Scalar.cmpi .slt v21 0#32
  let v24 : BitVec 1 := Scalar.cmpi .slt v20 0#32
  let v25 : BitVec 1 := Scalar.xori v23 v24
  let v26 : BitVec 1 := Scalar.andi v25 v22
  let v27 : BitVec 32 := Scalar.addi v21 v20
  Scalar.select v26 v27 v21

theorem keyBase_word : ∀ c : Fin 12, keyBase (BitVec.ofNat 32 c.val) = BitVec.ofNat 32 ((c.val * 1024) % 4096) := by
  decide

/-- A one-bit word made from a truth value is the bit one exactly when the value is true. -/
theorem ofBool_eq_one (b : Bool) : BitVec.ofBool b = 1#1 ↔ b = true := by
  cases b <;> decide

/-- Entry (r, c) of the mask is set exactly when row `r` of the row block and key `c` of the tile are one row
    number modulo 4096. -/
theorem pay7_apply (i : grid0.Coords) (r cc : Fin 1024) :
    k0_pay7 i (ix2 r cc) = 1#1 ↔ (i 0).val * 1024 + r.val = ((i 1).val * 1024) % 4096 + cc.val := by
  have h0 : (i 0).val < 4 := (i 0).isLt
  have h1 : (i 1).val < 12 := (i 1).isLt
  have hr := r.isLt
  have hc := cc.isLt
  have e0 : Scalar.muli (BitVec.ofNat 32 (i 0).val) 1024#32 = BitVec.ofNat 32 ((i 0).val * 1024) :=
    rowBase_word ⟨(i 0).val, h0⟩
  have e1 : keyBase (BitVec.ofNat 32 (i 1).val) = BitVec.ofNat 32 (((i 1).val * 1024) % 4096) :=
    keyBase_word ⟨(i 1).val, h1⟩
  have hv : k0_pay7 i (ix2 r cc)
      = IntOp.cmpi .eq (IntOp.addi (Scalar.muli (BitVec.ofNat 32 (i 0).val) 1024#32) (BitVec.ofNat 32 r.val))
          (IntOp.addi (keyBase (BitVec.ofNat 32 (i 1).val)) (BitVec.ofNat 32 cc.val)) := by
    unfold k0_pay7
    show IntOp.cmpi .eq (broadcastTo S1024x1024 _ broadcasts_S1024x1_S1024x1024 (ix2 r cc))
      (broadcastTo S1024x1024 _ broadcasts_S1x1024_S1024x1024 (ix2 r cc)) = _
    rw [Cert.ColumnLayout.broadcastTo_a1_ab_apply, broadcastTo_1b_ab_apply]
    show IntOp.cmpi .eq (IntOp.addi _ (iota .tc S1024x1 32 [0] iota_S1024x1_d0_w32 (ix2 r (0 : Fin 1))))
      (IntOp.addi _ (iota .tc S1x1024 32 [1] iota_S1x1024_d1_w32 (ix2 (0 : Fin 1) cc))) = _
    rw [Cert.LaneEntry.iota_lane, iota_single_apply]
    rfl
  rw [hv, e0, e1]
  unfold IntOp.cmpi IntOp.addi
  rw [← BitVec.ofNat_add, ← BitVec.ofNat_add, ofBool_eq_one]
  constructor
  · intro h
    have h' := congrArg BitVec.toNat (eq_of_beq h)
    simp only [BitVec.toNat_ofNat] at h'
    omega
  · intro h
    rw [h]
    exact beq_self_eq_true _

end Cert.KernelIdeal.Payload

end
-- ==== Proof.IdealAccum.lean ====
/-
  What the kernel's four buffers hold after each of the 48 grid points, as the tiled quantities of the shared
  specification.

  Point t works on row block t / 12 against key tile t % 12. After it, row r of the buffer of positive exponentials
  holds the positive term of anchor row (t / 12) · 1024 + r; row r of the cache holds that anchor's unit row times the
  scale; row r of the running sum holds the sum, over the key tiles 0 … t % 12, of the tile's sum of exponentials of
  the similarity entries (the fill on a self-pair); and after the last key tile the block of sums holds the full sum over
  the twelve tiles. By induction on the point: a first key tile stores the first three afresh, every later tile keeps
  the first two and adds its tile's sum to the third.
-/
import proofs.«128369_j16295105921245_2_alg».proof.Proof.IdealPieces
import proofs.«128369_j16295105921245_2_alg».proof.Proof.IdealPayloads
import proofs.«128369_j16295105921245_2_alg».proof.Proof.IdealMatmulMask
import proofs.«128369_j16295105921245_2_alg».proof.Proof.IdealBlocks

set_option maxRecDepth 16384

noncomputable section

namespace Cert.KernelIdeal.Body

open Cert.KernelIdeal Cert.KernelIdeal.Gen Cert.KernelIdeal.Payload Cert.Contrastive
open Idealize.ShloMosaic Idealize.ShloMosaic.TcCoe Idealize.ShloMosaic.ValueIdx Idealize.SL.Sem

variable (m : (ℓ : Loc nD τ sig) → Buf (Elt Ideal) ℓ)

/-! ## The arrays as the specification's arguments -/

/-- The anchor array, row by row. -/
def anchors (c : Dev nD) : Fin 4096 → Fin 512 → EReal :=
  fun b d => (V m c main_arg0 : S4096x512.Idx → EReal) (ix2 b d)
/-- The array of positives, row by row. -/
def positives (c : Dev nD) : Fin 4096 → Fin 512 → EReal :=
  fun b d => (V m c main_arg1 : S4096x512.Idx → EReal) (ix2 b d)
/-- The three views, row by row. -/
def views (c : Dev nD) : Fin 3 → Fin 4096 → Fin 512 → EReal :=
  fun v k d => (m ((c : Thread nD τ).loc main_arg2) : S3x4096x512.Idx → EReal) (ix3 v k d)

/-- The anchor row that row `r` of point `t`'s row block is. -/
def rowAt (t : Fin cfg0.N) (r : Fin 1024) : Fin 4096 :=
  ⟨(t.val / 12) * 1024 + r.val, by have := Blocks.lt48 t; have := r.isLt; omega⟩

/-- The key row that row `cc` of point `t`'s key tile is. -/
def keyAt (t : Fin cfg0.N) (cc : Fin 1024) : Fin 12288 :=
  ⟨(t.val % 12) * 1024 + cc.val, by have := Blocks.lt48 t; have := cc.isLt; omega⟩

/-- Before a row block's first key tile the point before is in the same row block. -/
theorem rowAt_prev (t : Fin cfg0.N) (h0 : ¬t.val % 12 = 0) (r : Fin 1024) :
    rowAt ⟨t.val - 1, prev t⟩ r = rowAt t r :=
  Fin.ext (by
    show (t.val - 1) / 12 * 1024 + r.val = t.val / 12 * 1024 + r.val
    have := Blocks.lt48 t
    omega)

/-! ## The sum over the keys, tile by tile -/

/-- Tile `j`'s sum of exponentials of row `b`'s similarity entries (zero past the twelfth tile). -/
def tileSum (A : Fin 4096 → Fin 512 → EReal) (W : Fin 3 → Fin 4096 → Fin 512 → EReal) (b : Fin 4096) (j : ℕ) : EReal :=
  if h : j < 12 then
    ∑ cc : Fin 1024, Ideal.exp (simTiled A W b ⟨j * 1024 + cc.val, by have := cc.isLt; omega⟩)
  else 0

/-- The tiled sum over the keys is the sum of the twelve tiles' sums. -/
theorem negTiled_eq_range (A : Fin 4096 → Fin 512 → EReal) (W : Fin 3 → Fin 4096 → Fin 512 → EReal) (b : Fin 4096) :
    negTiled A W b = ∑ j ∈ Finset.range 12, tileSum A W b j := by
  rw [← Fin.sum_univ_eq_sum_range (fun j => tileSum A W b j) 12]
  unfold negTiled
  refine Finset.sum_congr rfl fun j _ => ?_
  unfold tileSum
  rw [dif_pos j.isLt]

/-! ## The blocks at a point, as rows of the arrays -/

theorem anchorRow (c : Dev nD) (t : Fin cfg0.N) (r : Fin 1024) :
    rowOf (iblk m c 0 t) r = anchors m c (rowAt t r) :=
  funext fun d => Blocks.iblk0_apply m c t r d

theorem positiveRow (c : Dev nD) (t : Fin cfg0.N) (r : Fin 1024) :
    rowOf (iblk m c 1 t) r = positives m c (rowAt t r) :=
  funext fun d => Blocks.iblk1_apply m c t r d

theorem keyBlockRow (c : Dev nD) (t : Fin cfg0.N) (cc : Fin 1024) :
    rowOf (iblk m c 2 t) cc = keyRow (views m c) (keyAt t cc) :=
  funext fun e => (Blocks.iblk2_apply m c t cc e).trans (Blocks.V_views_apply m c (keyAt t cc) e)

/-! ## One key tile's contribution to a row's running sum -/

/-- The update of the running sum at point `t`, read at row `r`: the old value plus the tile's sum of exponentials —
    given that the left block's row `r` is the scaled unit anchor row and the key block's rows are the key rows of
    the tile. -/
theorem tile_step (A : Fin 4096 → Fin 512 → EReal) (W : Fin 3 → Fin 4096 → Fin 512 → EReal) (t : Fin cfg0.N)
    (xc : Vec Ideal S1024x512 .bf16) (x2 : Vec Ideal S1024x512 .f32) (xs : Vec Ideal S1024x1 .f32)
    (r : Fin 1024) (u : Fin 1)
    (hxc : ∀ d : Fin 512, xc (ix2 r d) = unitMul (A (rowAt t r)) d * invT)
    (hx2 : ∀ cc : Fin 1024, rowOf x2 cc = keyRow W (keyAt t cc)) :
    k0_pay1 (F := Ideal) (k0_pay6 (F := Ideal) xc x2) (k0_pay7 (grid0.coords t)) (k0_pay8 (F := Ideal)) xs (ix2 r u)
      = xs (ix2 r u) + tileSum A W (rowAt t r) (t.val % 12) := by
  have ht := Blocks.lt48 t
  obtain ⟨e0, e1⟩ := Blocks.coords_eq t
  refine (pay1_apply (k0_pay6 (F := Ideal) xc x2) (k0_pay7 (grid0.coords t)) (k0_pay8 (F := Ideal)) xs r u).trans
    (congrArg (xs (ix2 r u) + ·) ?_)
  unfold tileSum
  rw [dif_pos (Nat.mod_lt _ (by norm_num))]
  refine Finset.sum_congr rfl fun cc _ => congrArg Ideal.exp ?_
  have hcc := cc.isLt
  have hr := r.isLt
  have hcond : ((keyAt t cc).val % 4096 = (rowAt t r).val) ↔ k0_pay7 (grid0.coords t) (ix2 r cc) = 1#1 := by
    rw [pay7_apply, e0, e1]
    show (t.val % 12 * 1024 + cc.val) % 4096 = t.val / 12 * 1024 + r.val ↔ _
    omega
  by_cases hm : k0_pay7 (grid0.coords t) (ix2 r cc) = 1#1
  · exact (if_pos hm).trans ((pay8_apply (ix2 r cc)).trans (if_pos (hcond.mpr hm)).symm)
  · refine (if_neg hm).trans (((pay6_apply xc x2 r cc).trans ?_).trans
      (if_neg (fun h => hm (hcond.mp h))).symm)
    refine Finset.sum_congr rfl fun d _ => ?_
    rw [hxc d]
    exact congrArg (fun row => unitMul (A (rowAt t r)) d * invT * unitMul row d) (hx2 cc)

/-! ## What a point leaves, buffer by buffer -/

/-- The components of a quadruple known as a whole. -/
theorem quad1 {α β γ δ : Type} {p : α × β × γ × δ} {a : α} {b : β} {c : γ} {d : δ} (h : p = (a, b, c, d)) :
    p.1 = a := by rw [h]
theorem quad2 {α β γ δ : Type} {p : α × β × γ × δ} {a : α} {b : β} {c : γ} {d : δ} (h : p = (a, b, c, d)) :
    p.2.1 = b := by rw [h]
theorem quad3 {α β γ δ : Type} {p : α × β × γ × δ} {a : α} {b : β} {c : γ} {d : δ} (h : p = (a, b, c, d)) :
    p.2.2.1 = c := by rw [h]
theorem quad4 {α β γ δ : Type} {p : α × β × γ × δ} {a : α} {b : β} {c : γ} {d : δ} (h : p = (a, b, c, d)) :
    p.2.2.2 = d := by rw [h]

section Pieces
variable (c : Dev nD) (t : Fin cfg0.N)

/-- A first key tile stores the positive exponentials of its row block. -/
theorem first_pos (h0 : t.val % 12 = 0) :
    (held m c t.val t.isLt).1 = k0_pay3 (F := Ideal) (iblk m c 0 t) (iblk m c 1 t) := by
  have h1 : ¬t.val % 12 = 11 := by omega
  exact (quad1 (held_first m c t h0 h1)).trans
    (posFirst_eq c (grid0.coords t) (ms0 t) (hs0 t) (ms1 t) (hs1 t) (ms2 t) (hs2 t) (ms3 t) (hs3 t) (ms4 t) (hs4 t)
      cacheM (Memref.isWhole_whole _) sumM (Memref.isWhole_whole _) ((atFirst_iff t).mpr h0)
      (fun h => h1 ((atLast_iff t).mp h)) (iblk m c 0 t) (iblk m c 1 t) (iblk m c 2 t))

/-- A first key tile stores the cache of scaled unit anchor rows. -/
theorem first_cache (h0 : t.val % 12 = 0) :
    (held m c t.val t.isLt).2.2.1 = k0_pay4 (F := Ideal) (iblk m c 0 t) := by
  have h1 : ¬t.val % 12 = 11 := by omega
  exact (quad3 (held_first m c t h0 h1)).trans
    (cacheFirst_eq c (grid0.coords t) (ms0 t) (hs0 t) (ms1 t) (hs1 t) (ms2 t) (hs2 t) (ms3 t) (hs3 t) (ms4 t) (hs4 t)
      cacheM (Memref.isWhole_whole _) sumM (Memref.isWhole_whole _) ((atFirst_iff t).mpr h0)
      (fun h => h1 ((atLast_iff t).mp h)) (iblk m c 0 t) (iblk m c 1 t) (iblk m c 2 t))

/-- A first key tile restarts the running sum and adds its tile. -/
theorem first_sum (h0 : t.val % 12 = 0) :
    (held m c t.val t.isLt).2.2.2
      = k0_pay1 (F := Ideal) (k0_pay6 (F := Ideal) (k0_pay4 (F := Ideal) (iblk m c 0 t)) (iblk m c 2 t))
          (k0_pay7 (grid0.coords t)) (k0_pay8 (F := Ideal)) (k0_pay5 (F := Ideal)) := by
  have h1 : ¬t.val % 12 = 11 := by omega
  exact (quad4 (held_first m c t h0 h1)).trans
    (sumFirst_eq c (grid0.coords t) (ms0 t) (hs0 t) (ms1 t) (hs1 t) (ms2 t) (hs2 t) (ms3 t) (hs3 t) (ms4 t) (hs4 t)
      cacheM (Memref.isWhole_whole _) sumM (Memref.isWhole_whole _) ((atFirst_iff t).mpr h0)
      (fun h => h1 ((atLast_iff t).mp h)) (iblk m c 0 t) (iblk m c 1 t) (iblk m c 2 t))

/-- A later key tile keeps the cache. -/
theorem next_cache (h0 : ¬t.val % 12 = 0) :
    (held m c t.val t.isLt).2.2.1 = (held m c (t.val - 1) (prev t)).2.2.1 := by
  by_cases h1 : t.val % 12 = 11
  · exact quad3 (held_last m c t h0 h1)
  · exact quad3 (held_middle m c t h0 h1)

/-- A later key tile adds its tile to the running sum, reading the cache. -/
theorem next_sum (h0 : ¬t.val % 12 = 0) :
    (held m c t.val t.isLt).2.2.2
      = k0_pay1 (F := Ideal) (k0_pay6 (F := Ideal) (held m c (t.val - 1) (prev t)).2.2.1 (iblk m c 2 t))
          (k0_pay7 (grid0.coords t)) (k0_pay8 (F := Ideal)) (held m c (t.val - 1) (prev t)).2.2.2 := by
  by_cases h1 : t.val % 12 = 11
  · exact (quad4 (held_last m c t h0 h1)).trans
      (sumLast_eq c (grid0.coords t) (ms0 t) (hs0 t) (ms1 t) (hs1 t) (ms2 t) (hs2 t) (ms3 t) (hs3 t) (ms4 t) (hs4 t)
        cacheM (Memref.isWhole_whole _) sumM (Memref.isWhole_whole _) (fun h => h0 ((atFirst_iff t).mp h))
        ((atLast_iff t).mpr h1) (iblk m c 0 t) (iblk m c 1 t) (iblk m c 2 t)
        (held m c (t.val - 1) (prev t)).2.2.1 (held m c (t.val - 1) (prev t)).2.2.2)
  · exact (quad4 (held_middle m c t h0 h1)).trans
      (sumMiddle_eq c (grid0.coords t) (ms0 t) (hs0 t) (ms1 t) (hs1 t) (ms2 t) (hs2 t) (ms3 t) (hs3 t) (ms4 t) (hs4 t)
        cacheM (Memref.isWhole_whole _) sumM (Memref.isWhole_whole _) (fun h => h0 ((atFirst_iff t).mp h))
        (fun h => h1 ((atLast_iff t).mp h)) (iblk m c 0 t) (iblk m c 1 t) (iblk m c 2 t)
        (held m c (t.val - 1) (prev t)).2.2.1 (held m c (t.val - 1) (prev t)).2.2.2)

/-- The last key tile stores the block of sums: the same update of the running sum. -/
theorem last_neg (h0 : ¬t.val % 12 = 0) (h1 : t.val % 12 = 11) :
    (held m c t.val t.isLt).2.1
      = k0_pay1 (F := Ideal) (k0_pay6 (F := Ideal) (held m c (t.val - 1) (prev t)).2.2.1 (iblk m c 2 t))
          (k0_pay7 (grid0.coords t)) (k0_pay8 (F := Ideal)) (held m c (t.val - 1) (prev t)).2.2.2 :=
  (quad2 (held_last m c t h0 h1)).trans
    (negLast_eq c (grid0.coords t) (ms0 t) (hs0 t) (ms1 t) (hs1 t) (ms2 t) (hs2 t) (ms3 t) (hs3 t) (ms4 t) (hs4 t)
      cacheM (Memref.isWhole_whole _) sumM (Memref.isWhole_whole _) (fun h => h0 ((atFirst_iff t).mp h))
      ((atLast_iff t).mpr h1) (iblk m c 0 t) (iblk m c 1 t) (iblk m c 2 t)
      (held m c (t.val - 1) (prev t)).2.2.1 (held m c (t.val - 1) (prev t)).2.2.2)

/-! ## The same, entry by entry -/

theorem first_pos_entry (h0 : t.val % 12 = 0) (r : Fin 1024) (u : Fin 1) :
    (held m c t.val t.isLt).1 (ix2 r u) = posTiled (anchors m c) (positives m c) (rowAt t r) := by
  refine (congrFun (first_pos m c t h0) (ix2 r u)).trans ((pay3_apply (iblk m c 0 t) (iblk m c 1 t) r u).trans ?_)
  rw [anchorRow m c t r, positiveRow m c t r]
  rfl

theorem first_cache_entry (h0 : t.val % 12 = 0) (r : Fin 1024) (d : Fin 512) :
    (held m c t.val t.isLt).2.2.1 (ix2 r d) = unitMul (anchors m c (rowAt t r)) d * invT := by
  refine (congrFun (first_cache m c t h0) (ix2 r d)).trans ((pay4_apply (iblk m c 0 t) r d).trans ?_)
  rw [anchorRow m c t r]

theorem first_sum_entry (h0 : t.val % 12 = 0) (r : Fin 1024) (u : Fin 1) :
    (held m c t.val t.isLt).2.2.2 (ix2 r u) = tileSum (anchors m c) (views m c) (rowAt t r) 0 := by
  refine (congrFun (first_sum m c t h0) (ix2 r u)).trans
    ((tile_step (anchors m c) (views m c) t (k0_pay4 (F := Ideal) (iblk m c 0 t)) (iblk m c 2 t) (k0_pay5 (F := Ideal)) r u
      (fun d => (pay4_apply (iblk m c 0 t) r d).trans (by rw [anchorRow m c t r]))
      (keyBlockRow m c t)).trans ?_)
  rw [pay5_apply, zero_add, h0]

theorem next_sum_entry (h0 : ¬t.val % 12 = 0) (r : Fin 1024) (u : Fin 1)
    (hcache : ∀ d : Fin 512,
      (held m c (t.val - 1) (prev t)).2.2.1 (ix2 r d) = unitMul (anchors m c (rowAt t r)) d * invT) :
    (held m c t.val t.isLt).2.2.2 (ix2 r u)
      = (held m c (t.val - 1) (prev t)).2.2.2 (ix2 r u)
        + tileSum (anchors m c) (views m c) (rowAt t r) (t.val % 12) :=
  (congrFun (next_sum m c t h0) (ix2 r u)).trans
    (tile_step (anchors m c) (views m c) t (held m c (t.val - 1) (prev t)).2.2.1 (iblk m c 2 t)
      (held m c (t.val - 1) (prev t)).2.2.2 r u hcache (keyBlockRow m c t))

theorem last_neg_entry (h0 : ¬t.val % 12 = 0) (h1 : t.val % 12 = 11) (r : Fin 1024) (u : Fin 1)
    (hcache : ∀ d : Fin 512,
      (held m c (t.val - 1) (prev t)).2.2.1 (ix2 r d) = unitMul (anchors m c (rowAt t r)) d * invT) :
    (held m c t.val t.isLt).2.1 (ix2 r u)
      = (held m c (t.val - 1) (prev t)).2.2.2 (ix2 r u)
        + tileSum (anchors m c) (views m c) (rowAt t r) (t.val % 12) :=
  (congrFun (last_neg m c t h0 h1) (ix2 r u)).trans
    (tile_step (anchors m c) (views m c) t (held m c (t.val - 1) (prev t)).2.2.1 (iblk m c 2 t)
      (held m c (t.val - 1) (prev t)).2.2.2 r u hcache (keyBlockRow m c t))

end Pieces

/-! ## The induction over the points -/

/-- After point `n`, at every row `r` of its row block: the positive term, the scaled unit anchor row, the sum of the
    tiles so far, and — after the last key tile — the full sum over the keys. -/
theorem held_spec (c : Dev nD) : ∀ (n : ℕ) (hn : n < cfg0.N) (r : Fin 1024),
      (∀ u : Fin 1, (held m c n hn).1 (ix2 r u) = posTiled (anchors m c) (positives m c) (rowAt ⟨n, hn⟩ r))
    ∧ (∀ d : Fin 512, (held m c n hn).2.2.1 (ix2 r d) = unitMul (anchors m c (rowAt ⟨n, hn⟩ r)) d * invT)
    ∧ (∀ u : Fin 1, (held m c n hn).2.2.2 (ix2 r u)
        = ∑ j ∈ Finset.range (n % 12 + 1), tileSum (anchors m c) (views m c) (rowAt ⟨n, hn⟩ r) j)
    ∧ (n % 12 = 11 → ∀ u : Fin 1, (held m c n hn).2.1 (ix2 r u)
        = negTiled (anchors m c) (views m c) (rowAt ⟨n, hn⟩ r)) := by
  intro n
  induction n using Nat.strong_induction_on with
  | _ n ih =>
    intro hn r
    by_cases h0 : n % 12 = 0
    · refine ⟨fun u => first_pos_entry m c ⟨n, hn⟩ h0 r u, fun d => first_cache_entry m c ⟨n, hn⟩ h0 r d,
        fun u => ?_, fun h11 => absurd h11 (by omega)⟩
      have e : Finset.range (n % 12 + 1) = Finset.range 1 := congrArg Finset.range (by omega)
      rw [e, Finset.sum_range_one]
      exact first_sum_entry m c ⟨n, hn⟩ h0 r u
    · have hlt : n - 1 < n := by omega
      obtain ⟨ihp, ihc, ihs, _⟩ := ih (n - 1) hlt (prev ⟨n, hn⟩) r
      have hrow : rowAt ⟨n - 1, prev ⟨n, hn⟩⟩ r = rowAt ⟨n, hn⟩ r := rowAt_prev ⟨n, hn⟩ h0 r
      rw [hrow] at ihp ihc ihs
      have hcount : Finset.range ((n - 1) % 12 + 1) = Finset.range (n % 12) := congrArg Finset.range (by omega)
      rw [hcount] at ihs
      have hsum : ∀ u : Fin 1, (held m c n hn).2.2.2 (ix2 r u)
          = ∑ j ∈ Finset.range (n % 12 + 1), tileSum (anchors m c) (views m c) (rowAt ⟨n, hn⟩ r) j := fun u => by
        rw [Finset.sum_range_succ, ← ihs u]
        exact next_sum_entry m c ⟨n, hn⟩ h0 r u ihc
      refine ⟨fun u => (congrFun (pos_carried m c ⟨n, hn⟩ h0) (ix2 r u)).trans (ihp u),
        fun d => (congrFun (next_cache m c ⟨n, hn⟩ h0) (ix2 r d)).trans (ihc d), hsum, fun h11 u => ?_⟩
      have h12 : Finset.range 12 = Finset.range (n % 12 + 1) := congrArg Finset.range (by omega)
      rw [negTiled_eq_range, h12, Finset.sum_range_succ, ← ihs u]
      exact last_neg_entry m c ⟨n, hn⟩ h0 h11 r u ihc

end Cert.KernelIdeal.Body

end
-- ==== Proof.IdealFinal.lean ====
/-
  The two output arrays after the pipelined region: row b of the first holds the exponential of the scaled inner
  product of the unit anchor and unit positive rows, row b of the second the sum of the exponentials over all keys.

  Each block of 1024 rows is written back once, after the last key tile of its row block, from the buffer the body left;
  the twelve-fold revisiting of a row block changes nothing that is written back. The blocks written back tile the
  4096 rows, so each array ends as one function of the row.
-/
import proofs.«128369_j16295105921245_2_alg».proof.Proof.IdealFrame
import proofs.«128369_j16295105921245_2_alg».proof.Proof.Spec
import proofs.«128369_j16295105921245_2_alg».proof.Proof.IdealBlocks
import proofs.«128369_j16295105921245_2_alg».proof.Proof.IdealAccum
import Idealize.ShloMosaic.Lib.Pipeline.Value
import Idealize.ShloMosaic.Lib.ValueIdx

noncomputable section

namespace Cert.KernelIdeal.Body

open Cert.KernelIdeal Cert.KernelIdeal.Gen Cert.Contrastive
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## An array that ends as one function of the row -/

/-- A one-column array on 4096 rows made from a function of the row. -/
def colArray (f : Fin 4096 → EReal) : S4096x1.Idx → EReal := fun i => f (i 0 : Fin 4096)

theorem colArray_apply (f : Fin 4096 → EReal) (b : Fin 4096) (u : Fin 1) : colArray f (ix2 b u) = f b := rfl

/-- The first output array. Suppose that at every point that writes a block back the buffer holds, at row `r`, a
    function `f` of the array row `rowAt t r` the block puts there (`hheld`), that a block read out of any array is
    the array at those rows (`hblk`), and that the blocks written back cover the array (`hcover`). Then the array
    ends as `f` of the row. -/
theorem arr3_of (c : Dev nD) (rowAt : Fin cfg0.N → Fin 1024 → Fin 4096) (f : Fin 4096 → EReal)
    (hheld : ∀ t : Fin cfg0.N, t.val % 12 = 11 → ∀ (r : Fin 1024) (u : Fin 1),
      (held m c t.val t.isLt).1 (ix2 r u) = f (rowAt t r))
    (hblk : ∀ (t : Fin cfg0.N) (G : S4096x1.Idx → EReal) (r : Fin 1024) (u : Fin 1),
      ((cfg0.win 3).blk t).view.read (Elt Ideal) G (ix2 r u) = G (ix2 (rowAt t r) u))
    (hcover : ∀ i : S4096x1.Idx, ∃ t : Fin cfg0.N, (cfg0.win 3).flush t = true ∧ i ∈ ((cfg0.win 3).blk t).view.set) :
    (dats m 0 c).arrAt 3 cfg0.N = colArray f := by
  refine (dats m 0 c).arrAt_eq_of_cover 3 (colArray f) (fun t hf => ?_) hcover
  have h11 : t.val % 12 = 11 := (flush0_3 t).mp hf
  show (cfg0.win 3).cut (grid0.coords t) ((dats m 0 c).after 3 t) = _
  rw [after3]
  refine funext fun (y : S1024x1.Idx) => ?_
  obtain ⟨r, u, rfl⟩ : ∃ (r : Fin 1024) (u : Fin 1), y = ix2 r u := ⟨y 0, y 1, eq_ix2 y⟩
  show (held m c t.val t.isLt).1 (ix2 r u) = ((cfg0.win 3).blk t).view.read (Elt Ideal) (colArray f) (ix2 r u)
  exact (hheld t h11 r u).trans (hblk t (colArray f) r u).symm

/-- The second output array, likewise. -/
theorem arr4_of (c : Dev nD) (rowAt : Fin cfg0.N → Fin 1024 → Fin 4096) (f : Fin 4096 → EReal)
    (hheld : ∀ t : Fin cfg0.N, t.val % 12 = 11 → ∀ (r : Fin 1024) (u : Fin 1),
      (held m c t.val t.isLt).2.1 (ix2 r u) = f (rowAt t r))
    (hblk : ∀ (t : Fin cfg0.N) (G : S4096x1.Idx → EReal) (r : Fin 1024) (u : Fin 1),
      ((cfg0.win 4).blk t).view.read (Elt Ideal) G (ix2 r u) = G (ix2 (rowAt t r) u))
    (hcover : ∀ i : S4096x1.Idx, ∃ t : Fin cfg0.N, (cfg0.win 4).flush t = true ∧ i ∈ ((cfg0.win 4).blk t).view.set) :
    (dats m 0 c).arrAt 4 cfg0.N = colArray f := by
  refine (dats m 0 c).arrAt_eq_of_cover 4 (colArray f) (fun t hf => ?_) hcover
  have h11 : t.val % 12 = 11 := (flush0_4 t).mp hf
  show (cfg0.win 4).cut (grid0.coords t) ((dats m 0 c).after 4 t) = _
  rw [after4]
  refine funext fun (y : S1024x1.Idx) => ?_
  obtain ⟨r, u, rfl⟩ : ∃ (r : Fin 1024) (u : Fin 1), y = ix2 r u := ⟨y 0, y 1, eq_ix2 y⟩
  show (held m c t.val t.isLt).2.1 (ix2 r u) = ((cfg0.win 4).blk t).view.read (Elt Ideal) (colArray f) (ix2 r u)
  exact (hheld t h11 r u).trans (hblk t (colArray f) r u).symm

/-! ## The two output arrays -/

/-- The first output array as a function of the row: the positive term of the row. -/
def posArray (c : Dev nD) : S4096x1.Idx → EReal :=
  fun i => posTiled (anchors m c) (positives m c) (i 0 : Fin 4096)

/-- The second output array as a function of the row: the sum of exponentials over all keys. -/
def negArray (c : Dev nD) : S4096x1.Idx → EReal :=
  fun i => negTiled (anchors m c) (views m c) (i 0 : Fin 4096)

theorem posArray_apply (c : Dev nD) (b : Fin 4096) (u : Fin 1) :
    posArray m c (ix2 b u) = posTiled (anchors m c) (positives m c) b := rfl

theorem negArray_apply (c : Dev nD) (b : Fin 4096) (u : Fin 1) :
    negArray m c (ix2 b u) = negTiled (anchors m c) (views m c) b := rfl

/-- After the region the first output array holds the positive term of every row. -/
theorem final_pos (c : Dev nD) : (dats m 0 c).arrAt 3 cfg0.N = posArray m c :=
  arr3_of m c rowAt (posTiled (anchors m c) (positives m c))
    (fun t _ r u => (held_spec m c t.val t.isLt r).1 u)
    (fun t G r u => Blocks.oblk3_apply G t r u) Blocks.cover3

/-- After the region the second output array holds every row's sum of exponentials over all keys. -/
theorem final_neg (c : Dev nD) : (dats m 0 c).arrAt 4 cfg0.N = negArray m c :=
  arr4_of m c rowAt (negTiled (anchors m c) (views m c))
    (fun t h11 r u => (held_spec m c t.val t.isLt r).2.2.2 h11 u)
    (fun t G r u => Blocks.oblk4_apply G t r u) Blocks.cover4

end Cert.KernelIdeal.Body

end
-- ==== Proof.IdealValue.lean ====
/-
  The idealized kernel's run with its result named: the host lines after the region apply the common tail to the two
  arrays the region wrote, and those hold, row by row, the tiled positive exponential and the tiled sum of exponentials
  of the argument arrays. So the result is the tiled form of the loss of the arguments.
-/
import proofs.«128369_j16295105921245_2_alg».proof.Proof.IdealLoss
import proofs.«128369_j16295105921245_2_alg».proof.Proof.IdealFinal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Contrastive Idealize.ShloMosaic.ValueIdx

variable (m : (ℓ : Loc nD τ sig) → Buf (Elt Ideal) ℓ) (ρ : Dev nD → PrngReg)

/-- The result buffer after @main: the tiled loss of the three argument arrays as the region finds them. -/
theorem value_eq (c : Dev nD) :
    Pipeline.afterTail₀ cfgs (dats (F := Ideal) m) 0 (V0 m) [hostOps1] c main_v9
      = fun _ => lossTiled (anchors m c) (positives m c) (views m c) := by
  rw [result_eq, final_pos, final_neg, Cert.KernelIdeal.Tail.tail_eq]
  funext _
  exact congrArg₂ lossOf (funext fun b => posArray_apply m c b 0) (funext fun b => negArray_apply m c b 0)

/-- The argument arrays as the region finds them are the arrays @main was launched with. -/
theorem anchors_eq (c : Dev nD) :
    anchors m c = fun b d => (m ((c : Thread nD τ).loc main_arg0) : S4096x512.Idx → EReal) (ix2 b d) := by
  unfold anchors; rw [V_main_arg0]
theorem positives_eq (c : Dev nD) :
    positives m c = fun b d => (m ((c : Thread nD τ).loc main_arg1) : S4096x512.Idx → EReal) (ix2 b d) := by
  unfold positives; rw [V_main_arg1]

/-- Every weakly fair execution of @main terminates with the result at the tiled loss of the arguments and the arguments
    unchanged. -/
theorem run_value : θ_run defs (onTc (τ := τ) (main (F := Ideal))) ⟨m, fun _ => 0, ρ⟩ (fun r => ∀ c : Dev nD,
      r.2.mem ((c.tc : Thread nD τ).loc main_v9) = (fun _ => lossTiled (anchors m c) (positives m c) (views m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (value_eq m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      (((h c).2 main_arg2 (Pipeline.mem_restRefs_of main_arg2 (by decide) (by decide))).trans (W_main_arg2 m (dats (F := Ideal) m) c))⟩)
    (run_main (F := Ideal) m ρ)

end Cert.KernelIdeal.Body

end
-- ==== Proof.RefPlain.lean ====
/-
  The reference's result, read one operation at a time, is the plain form of the loss.
-/
import proofs.«128369_j16295105921245_2_alg».proof.Proof.Gen.ReferenceIdeal.Read
import proofs.«128369_j16295105921245_2_alg».proof.Proof.Spec

noncomputable section

namespace Cert.Contrastive.Reference

open Cert.ReferenceIdeal Cert.ReferenceIdeal.Gen Cert.ReferenceIdeal.Read Idealize.ShloMosaic Idealize.ShloMosaic.ValueIdx

/-- A [4096, 512] array of extended reals, and a [3, 4096, 512] one. -/
abbrev Arr2 := (⟨S4096x512, .f32⟩ : BufTy).Contents (Elt Ideal)
abbrev Arr3 := (⟨S3x4096x512, .f32⟩ : BufTy).Contents (Elt Ideal)

/-- The rows of a [4096, 512] array, by coordinates. -/
def rows (x : Arr2) : Fin 4096 → Fin 512 → EReal := fun b d => x (ix2 b d)
/-- The rows of the three views of a [3, 4096, 512] array, by coordinates. -/
def views (x : Arr3) : Fin 3 → Fin 4096 → Fin 512 → EReal := fun v k d => x (ix3 v k d)

/-- Two indices of rank one, two or three agree when their coordinates do. -/
macro "idx_eq1" : tactic => `(tactic| (funext a; match a with | ⟨0, _⟩ => rfl))
macro "idx_eq2" : tactic => `(tactic| (funext a; match a with | ⟨0, _⟩ => rfl | ⟨1, _⟩ => rfl))
macro "idx_eq3" : tactic => `(tactic| (funext a; match a with | ⟨0, _⟩ => rfl | ⟨1, _⟩ => rfl | ⟨2, _⟩ => rfl))

/-! ## The squared lengths and the unit rows -/

theorem v1_at (x0 : Arr2) (b : Fin 4096) :
    val_main_v1 (F := Ideal) x0 (ix1 b) = ∑ e : Fin 512, rows x0 b e * rows x0 b e := by
  rw [val_main_v1_apply, val_main_cst_apply, Ideal.ofBits_def, Ideal.ofBits_zero_f32, zero_add]
  refine Finset.sum_congr rfl fun e _ => ?_
  have h : idx_main_v1 (ix1 b) e = ix2 b e := by idx_eq2
  rw [h, val_main_v0_apply]
  rfl

theorem v7_at (x0 : Arr2) (b : Fin 4096) (d : Fin 512) :
    val_main_v7 (F := Ideal) x0 (ix2 b d) = unitDiv (rows x0 b) d := by
  have h : idx_main_v2 (idx_main_v6 (ix2 b d)) = ix1 b := by idx_eq1
  rw [val_main_v7_apply, val_main_v6_apply, val_main_v5_apply, val_main_v3_apply, val_main_v2_apply,
    val_main_v4_apply, val_main_cst_0_apply, h, v1_at]
  rfl

theorem v9_at (x1 : Arr2) (b : Fin 4096) :
    val_main_v9 (F := Ideal) x1 (ix1 b) = ∑ e : Fin 512, rows x1 b e * rows x1 b e := by
  rw [val_main_v9_apply, val_main_cst_1_apply, Ideal.ofBits_def, Ideal.ofBits_zero_f32, zero_add]
  refine Finset.sum_congr rfl fun e _ => ?_
  have h : idx_main_v9 (ix1 b) e = ix2 b e := by idx_eq2
  rw [h, val_main_v8_apply]
  rfl

theorem v15_at (x1 : Arr2) (b : Fin 4096) (d : Fin 512) :
    val_main_v15 (F := Ideal) x1 (ix2 b d) = unitDiv (rows x1 b) d := by
  have h : idx_main_v10 (idx_main_v14 (ix2 b d)) = ix1 b := by idx_eq1
  rw [val_main_v15_apply, val_main_v14_apply, val_main_v13_apply, val_main_v11_apply, val_main_v10_apply,
    val_main_v12_apply, val_main_cst_2_apply, h, v9_at]
  rfl

theorem v17_at (x2 : Arr3) (v : Fin 3) (k : Fin 4096) :
    val_main_v17 (F := Ideal) x2 (ix2 v k) = ∑ e : Fin 512, views x2 v k e * views x2 v k e := by
  rw [val_main_v17_apply, val_main_cst_3_apply, Ideal.ofBits_def, Ideal.ofBits_zero_f32, zero_add]
  refine Finset.sum_congr rfl fun e _ => ?_
  have h : idx_main_v17 (ix2 v k) e = ix3 v k e := by idx_eq3
  rw [h, val_main_v16_apply]
  rfl

theorem v23_at (x2 : Arr3) (v : Fin 3) (k : Fin 4096) (d : Fin 512) :
    val_main_v23 (F := Ideal) x2 (ix3 v k d) = unitDiv (views x2 v k) d := by
  have h : idx_main_v18 (idx_main_v22 (ix3 v k d)) = ix2 v k := by idx_eq2
  rw [val_main_v23_apply, val_main_v22_apply, val_main_v21_apply, val_main_v19_apply, val_main_v18_apply,
    val_main_v20_apply, val_main_cst_4_apply, h, v17_at]
  rfl

/-! ## The inner products -/

theorem v25_at (x0 x1 : Arr2) (b : Fin 4096) :
    val_main_v25 (F := Ideal) x0 x1 (ix1 b) = ∑ d : Fin 512, unitDiv (rows x0 b) d * unitDiv (rows x1 b) d := by
  rw [val_main_v25_apply, val_main_cst_5_apply, Ideal.ofBits_def, Ideal.ofBits_zero_f32, zero_add]
  refine Finset.sum_congr rfl fun d _ => ?_
  have h : idx_main_v25 (ix1 b) d = ix2 b d := by idx_eq2
  rw [h, val_main_v24_apply, v7_at, v15_at]
  rfl

theorem v26_at (x0 : Arr2) (x2 : Arr3) (b : Fin 4096) (v : Fin 3) (k : Fin 4096) :
    val_main_v26 (F := Ideal) x0 x2 (ix3 b v k)
      = ∑ d : Fin 512, unitDiv (rows x0 b) d * unitDiv (views x2 v k) d := by
  rw [val_main_v26_apply]
  refine Finset.sum_congr rfl fun d _ => ?_
  have hl : lidx_main_v26 (ix3 b v k) d = ix2 b d := by idx_eq2
  have hr : ridx_main_v26 (ix3 b v k) d = ix3 v k d := by idx_eq3
  rw [hl, hr, v7_at, v23_at]

/-! ## The mask of the self-pairs, and the similarity table -/

/-- Two row numbers below 4096, written as 32-bit words, are one word exactly when they are one number. -/
theorem word_eq_iff (b k : Fin 4096) : BitVec.ofNat 32 b.val = BitVec.ofNat 32 k.val ↔ b = k := by
  constructor
  · intro e
    have h := congrArg BitVec.toNat e
    simp only [BitVec.toNat_ofNat] at h
    have hb := b.isLt
    have hk := k.isLt
    exact Fin.ext (by omega)
  · rintro rfl
    rfl

theorem mask_at (b : Fin 4096) (v : Fin 3) (k : Fin 4096) :
    val_main_call0_v1 (F := Ideal) (ix3 b v k) = if k = b then 1#1 else 0#1 := by
  have h : idx_main_v32 (idx_main_call0_v1 (ix3 b v k)) = ix2 b k := by idx_eq2
  rw [val_main_call0_v1_apply, val_main_v32_apply, h, val_main_v31_apply, val_main_v30_apply, val_main_v27_apply,
    val_main_v28_apply, val_main_v29_apply, val_main_c_apply]
  show IntOp.cmpi .eq (IntOp.addi (BitVec.ofNat 32 b.val) 0#32) (BitVec.ofNat 32 k.val) = _
  unfold IntOp.cmpi IntOp.addi
  rw [BitVec.add_zero]
  by_cases hk : k = b
  · subst hk
    simp
  · rw [if_neg hk]
    have hne : ¬ BitVec.ofNat 32 b.val = BitVec.ofNat 32 k.val := fun e => hk ((word_eq_iff b k).mp e).symm
    rw [beq_false_of_ne hne]
    rfl

theorem v33_at (x0 : Arr2) (x2 : Arr3) (b : Fin 4096) (v : Fin 3) (k : Fin 4096) :
    val_main_v33 (F := Ideal) x0 x2 (ix3 b v k) = simPlain (rows x0) (views x2) b v k := by
  rw [val_main_v33_apply, mask_at, val_main_call0_v2_apply, val_main_call0_v0_apply, val_main_cst_6_apply, v26_at]
  unfold simPlain
  by_cases hk : k = b
  · simp only [if_pos hk, select_one]
    rfl
  · simp only [if_neg hk, select_zero]

theorem v36_at (x0 x1 : Arr2) (b : Fin 4096) :
    val_main_v36 (F := Ideal) x0 x1 (ix1 b) = posPlain (rows x0) (rows x1) b := by
  rw [val_main_v36_apply, val_main_v35_apply, v25_at, val_main_v34_apply, val_main_cst_7_apply]
  rfl

theorem v39_at (x0 : Arr2) (x2 : Arr3) (b : Fin 4096) (v : Fin 3) (k : Fin 4096) :
    val_main_v39 (F := Ideal) x0 x2 (ix3 b v k)
      = Ideal.exp (Ideal.div (simPlain (rows x0) (views x2) b v k) tWord) := by
  rw [val_main_v39_apply, val_main_v38_apply, v33_at, val_main_v37_apply, val_main_cst_8_apply]
  rfl

/-! ## The sum over the keys: a sum over the two inner axes of a [4096, 3, 4096] array -/

/-- The host's sum of a [4096, 3, 4096] array over its two inner axes, at row `b`: the initial value plus the
    double sum over the view and the key. The indices that drop to row `b` are those whose first coordinate is `b`,
    and they are numbered by the other two coordinates. -/
theorem reduce12_at (y : S4096x3x4096.Idx → EReal) (init : EReal) (b : Fin 4096) :
    Ideal.hostReduceAdd reducesTo_S4096x3x4096_S4096_d1_2 y init (ix1 b)
      = init + ∑ v : Fin 3, ∑ k : Fin 4096, y (ix3 b v k) := by
  unfold Ideal.hostReduceAdd
  refine congrArg (init + ·) ?_
  refine Eq.trans ?_ (Fintype.sum_prod_type' (fun (v : Fin 3) (k : Fin 4096) => y (ix3 b v k)))
  have hdrop : ∀ i : S4096x3x4096.Idx,
      ((reducesTo_S4096x3x4096_S4096_d1_2.drop i) 0 : Nat) = (i 0 : Nat) := fun i =>
    Shape.ReducesTo.drop_apply_val_of_eq reducesTo_S4096x3x4096_S4096_d1_2 i 0 0
  refine Finset.sum_nbij' (fun i => ((i 1 : Fin 3), (i 2 : Fin 4096))) (fun p => ix3 b p.1 p.2) ?_ ?_ ?_ ?_ ?_
  · intro i _
    exact Finset.mem_univ _
  · intro p _
    refine Finset.mem_filter.2 ⟨Finset.mem_univ _, ?_⟩
    funext a
    match a with
    | ⟨0, _⟩ => exact Fin.ext (hdrop _)
  · intro i hi
    have hj := (Finset.mem_filter.1 hi).2
    have h0 : (i 0 : Fin 4096) = b := Fin.ext ((hdrop i).symm.trans (congrArg Fin.val (congrFun hj 0)))
    rw [← h0]
    exact (eq_ix3 i).symm
  · intro p _
    rfl
  · intro i hi
    have hj := (Finset.mem_filter.1 hi).2
    have h0 : (i 0 : Fin 4096) = b := Fin.ext ((hdrop i).symm.trans (congrArg Fin.val (congrFun hj 0)))
    show y i = y (ix3 b (i 1) (i 2))
    rw [← h0]
    exact congrArg y (eq_ix3 i)

theorem v40_at (x0 : Arr2) (x2 : Arr3) (b : Fin 4096) :
    val_main_v40 (F := Ideal) x0 x2 (ix1 b) = negPlain (rows x0) (views x2) b := by
  unfold val_main_v40
  simp only [Host.reduceAdd, Ideal.hostReduceAdd_def]
  rw [reduce12_at, val_main_cst_9_apply, Ideal.ofBits_def, Ideal.ofBits_zero_f32, zero_add]
  unfold negPlain
  refine Finset.sum_congr rfl fun v _ => Finset.sum_congr rfl fun k _ => ?_
  exact v39_at x0 x2 b v k

/-! ## The tail: the logarithms, their mean, and the sign -/

/-- A sum over the indices of a rank-one shape is the sum over the coordinate. -/
theorem sum_idx1 {n : Nat} (f : (⟨1, ![n]⟩ : Shape).Idx → EReal) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

theorem v45_at (x0 x1 : Arr2) (x2 : Arr3) (b : Fin 4096) :
    val_main_v45 (F := Ideal) x0 x1 x2 (ix1 b)
      = Ideal.log (Ideal.div (posPlain (rows x0) (rows x1) b)
          ((posPlain (rows x0) (rows x1) b + negPlain (rows x0) (views x2) b) + deltaWord)) := by
  rw [val_main_v45_apply, val_main_v44_apply, val_main_v43_apply, val_main_v41_apply, v36_at, v40_at,
    val_main_v42_apply, val_main_cst_10_apply]
  rfl

theorem v48_at (x0 x1 : Arr2) (x2 : Arr3) (i : S_.Idx) :
    val_main_v48 (F := Ideal) x0 x1 x2 i = lossPlain (rows x0) (rows x1) (views x2) := by
  rw [val_main_v48_apply, val_main_v47_apply, val_main_v46_apply, val_main_cst_11_apply, val_main_cst_12_apply,
    sum_idx1]
  simp only [v45_at, Ideal.ofBits_def, Ideal.ofBits_zero_f32, zero_add]
  rfl

/-- The reference's result is the plain form of the loss of its three arguments, read by coordinates. -/
theorem ref_is_plain (x0 x1 : (⟨S4096x512, .f32⟩ : BufTy).Contents (Elt Ideal))
    (x2 : (⟨S3x4096x512, .f32⟩ : BufTy).Contents (Elt Ideal)) :
    Cert.ReferenceIdeal.Read.val_main_v48 (F := Ideal) x0 x1 x2
      = fun _ => Cert.Contrastive.lossPlain (fun b d => x0 (ValueIdx.ix2 b d)) (fun b d => x1 (ValueIdx.ix2 b d))
          (fun v k d => x2 (ValueIdx.ix3 v k d)) :=
  funext fun i => v48_at x0 x1 x2 i

end Cert.Contrastive.Reference

end
-- ==== Proof.LibTiledSum.lean ====
/-
  Sums over tiles of consecutive numbers, with a masked tail; and the signed maximum and minimum of two words.

  `sum_tiles`: a sum over `a` tiles of `b` consecutive numbers is the sum over the first `a * b` numbers.
  `sum_head`: a sum over `n + k` numbers of a function that vanishes from `n` on is the sum over the first `n`.
  `sum_tiles_head`: the tiles cover at least `n` numbers; the numbers from `n` on count zero; the total is the sum
  over the first `n` — the shape of a reduction over a padded array whose padding rows are masked before each tile is
  summed. All three hold in any commutative monoid (so on the extended reals, with no finiteness).
  `maxsi_comm`, `minsi_comm`: the signed maximum and minimum of two words of any width do not depend on the order of
  the operands (a clip written `max(x, lo)` on one side and `max(lo, x)` on the other).
-/
import Idealize.ShloMosaic.PureOps.Ideal

noncomputable section

namespace Cert.TiledSum

open Idealize.ShloMosaic

/-- A sum over `a` tiles of `b` consecutive numbers is the sum over the first `a * b` numbers. -/
theorem sum_tiles {M : Type*} [AddCommMonoid M] (a b : ℕ) (f : ℕ → M) :
    ∑ t : Fin a, ∑ r : Fin b, f (t.val * b + r.val) = ∑ n : Fin (a * b), f n.val := by
  rw [← Equiv.sum_comp finProdFinEquiv (fun n : Fin (a * b) => f n.val), Fintype.sum_prod_type]
  refine Finset.sum_congr rfl fun t _ => Finset.sum_congr rfl fun r _ => ?_
  congr 1
  show t.val * b + r.val = r.val + b * t.val
  rw [Nat.mul_comm, Nat.add_comm]

/-- A sum over `n + k` numbers of a function that vanishes from `n` on is the sum over the first `n`. -/
theorem sum_head {M : Type*} [AddCommMonoid M] (n k : ℕ) (f : ℕ → M) (hf : ∀ i, n ≤ i → f i = 0) :
    ∑ i : Fin (n + k), f i.val = ∑ i : Fin n, f i.val := by
  rw [Fin.sum_univ_add]
  have : ∑ i : Fin k, f (Fin.natAdd n i).val = 0 :=
    Finset.sum_eq_zero fun i _ => hf _ (by simp only [Fin.coe_natAdd]; omega)
  rw [this, add_zero]
  rfl

/-- `a` tiles of `b` numbers cover the first `n` numbers; the numbers from `n` on count zero: the tiles' sums add up to
    the sum over the first `n`. -/
theorem sum_tiles_head {M : Type*} [AddCommMonoid M] (a b n : ℕ) (hn : n ≤ a * b) (F : Fin n → M) :
    ∑ t : Fin a, ∑ r : Fin b, (if h : t.val * b + r.val < n then F ⟨t.val * b + r.val, h⟩ else 0)
      = ∑ i : Fin n, F i := by
  have h1 := sum_tiles a b (fun i => if h : i < n then F ⟨i, h⟩ else 0)
  have h2 := sum_head n (a * b - n) (fun i => if h : i < n then F ⟨i, h⟩ else 0) (fun i hi => dif_neg (by omega))
  have h3 : ∑ i : Fin (a * b), (fun i => if h : i < n then F ⟨i, h⟩ else 0) i.val
      = ∑ i : Fin (n + (a * b - n)), (fun i => if h : i < n then F ⟨i, h⟩ else 0) i.val :=
    Fintype.sum_equiv (finCongr (by omega)) _ _ (fun _ => rfl)
  refine (h1.trans (h3.trans h2)).trans (Finset.sum_congr rfl fun i _ => ?_)
  exact dif_pos i.isLt

/-- The signed maximum of two words does not depend on the order of the operands. -/
theorem maxsi_comm {w : ℕ} (a b : BitVec w) : IntOp.maxsi a b = IntOp.maxsi b a := by
  unfold IntOp.maxsi
  by_cases h1 : b.slt a = true <;> by_cases h2 : a.slt b = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

/-- The signed minimum of two words does not depend on the order of the operands. -/
theorem minsi_comm {w : ℕ} (a b : BitVec w) : IntOp.minsi a b = IntOp.minsi b a := by
  unfold IntOp.minsi
  by_cases h1 : a.slt b = true <;> by_cases h2 : b.slt a = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

end Cert.TiledSum

end
-- ==== Proof.Bridge.lean ====
/-
  The tiled and the plain form of the contrastive loss are the same extended real when every input entry is a real.

  The constant words are read as exact rationals. On a row of reals both normalisations are the same real row:
  the sum of squares S is a nonnegative real, max(√S, ε) = √(max(S, ε²)) because the square root is monotone and
  ε > 0, and multiplying by the reciprocal square root of a positive real is dividing by its square root. Dividing
  by the temperature word is multiplying by its exact reciprocal, on every extended real. For real rows the scale
  leaves the inner product (a finite sum of reals), so each entry of the similarity table is the same in both forms,
  the fills included. The 12 tiles of 1024 keys and the 3 views of 4096 keys are two groupings of the same 12288
  terms of a sum in a commutative monoid.
-/
import proofs.«128369_j16295105921245_2_alg».proof.Proof.Spec
import proofs.«128369_j16295105921245_2_alg».proof.Proof.LibTiledSum

noncomputable section

namespace Cert.Contrastive

open Idealize.ShloMosaic

/-! ## The constant words as reals -/

/-- The temperature word is 13421773 / 2^26. -/
theorem tWord_eq : tWord = ((13421773 / 67108864 : ℝ) : EReal) := by
  simp [tWord, Ideal.ofBits, Ideal.ieee, -EReal.coe_mul]; norm_num

/-- The clamp word is 2305843 / 2^61. -/
theorem epsWord_eq : epsWord = ((2305843 / 2305843009213693952 : ℝ) : EReal) := by
  simp [epsWord, Ideal.ofBits, Ideal.ieee, -EReal.coe_mul]; norm_num

/-- The fill word is -10^9. -/
theorem fillWord_eq : fillWord = ((-1000000000 : ℝ) : EReal) := by
  simp [fillWord, Ideal.ofBits, Ideal.ieee, -EReal.coe_mul]; norm_num

/-- Dividing by the temperature word is multiplying by its reciprocal, on every extended real. -/
theorem div_tWord (x : EReal) : Ideal.div x tWord = x * invT := by
  have h : (1 / (13421773 / 67108864) : ℝ) = 67108864 / 13421773 := by norm_num
  rw [tWord_eq, Ideal.div_coe (by norm_num) x, h, invT]

/-- The fill divided by the temperature is the scaled fill. -/
theorem fill_div : Ideal.div fillWord tWord = fillT := by
  rw [div_tWord, fillWord_eq, invT, fillT, ← EReal.coe_mul]
  congr 1
  norm_num

/-! ## Finite sums and maxima of reals inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (Monotone.map_max EReal.coe_strictMono.monotone).symm

theorem sumsq_coe (r : Fin 512 → ℝ) :
    ∑ e : Fin 512, (r e : EReal) * (r e : EReal) = ((∑ e : Fin 512, r e * r e : ℝ) : EReal) := by
  rw [coe_sum]; exact Finset.sum_congr rfl fun e _ => (EReal.coe_mul _ _).symm

/-! ## Unit rows -/

/-- The real unit row: r d / √(max(|r|², ε²)). -/
def unitR (r : Fin 512 → ℝ) (d : Fin 512) : ℝ :=
  r d * (Real.sqrt (max (∑ e : Fin 512, r e * r e) (5316911940649 / 5316911983139663491615228241121378304)))⁻¹

theorem unitMul_coe (r : Fin 512 → ℝ) (d : Fin 512) :
    unitMul (fun e => (r e : EReal)) d = (unitR r d : EReal) := by
  show (r d : EReal) * Ideal.rsqrt (max (∑ e : Fin 512, (r e : EReal) * (r e : EReal)) epsSq) = _
  have hm : 0 < max (∑ e : Fin 512, r e * r e) (5316911940649 / 5316911983139663491615228241121378304 : ℝ) :=
    lt_max_of_lt_right (by norm_num)
  rw [sumsq_coe, epsSq, coe_max, Ideal.rsqrt_coe, if_neg (not_lt.mpr hm.le), if_neg hm.ne', ← EReal.coe_mul]
  rfl

theorem unitDiv_coe (r : Fin 512 → ℝ) (d : Fin 512) :
    unitDiv (fun e => (r e : EReal)) d = (unitR r d : EReal) := by
  show Ideal.div (r d : EReal) (max (Ideal.sqrt (∑ e : Fin 512, (r e : EReal) * (r e : EReal))) epsWord) = _
  have hS : 0 ≤ ∑ e : Fin 512, r e * r e := Finset.sum_nonneg fun e _ => mul_self_nonneg _
  have hε : (0 : ℝ) < 2305843 / 2305843009213693952 := by norm_num
  have h2 : (5316911940649 / 5316911983139663491615228241121378304 : ℝ)
      = (2305843 / 2305843009213693952 : ℝ) ^ 2 := by norm_num
  have hq : max (Real.sqrt (∑ e : Fin 512, r e * r e)) (2305843 / 2305843009213693952 : ℝ)
      = Real.sqrt (max (∑ e : Fin 512, r e * r e) (5316911940649 / 5316911983139663491615228241121378304)) := by
    rw [h2, Monotone.map_max (f := Real.sqrt) (fun _ _ h => Real.sqrt_le_sqrt h), Real.sqrt_sq hε.le]
  have hpos : 0 < Real.sqrt (max (∑ e : Fin 512, r e * r e) (5316911940649 / 5316911983139663491615228241121378304)) :=
    Real.sqrt_pos.mpr (lt_max_of_lt_right (by norm_num))
  rw [sumsq_coe, Ideal.sqrt_coe, if_neg (not_lt.mpr hS), epsWord_eq, coe_max, hq, Ideal.div_coe hpos.ne', one_div,
    ← EReal.coe_mul]
  rfl

/-- On a row of reals the two normalisations agree. -/
theorem unitMul_eq_unitDiv (x : Fin 512 → EReal) (hx : ∀ d, ∃ r : ℝ, x d = (r : EReal)) : unitMul x = unitDiv x := by
  choose r hr using hx
  obtain rfl : x = fun e => (r e : EReal) := funext hr
  funext d
  rw [unitMul_coe, unitDiv_coe]

/-- For rows of reals, scaling one factor before the inner product is scaling the inner product. -/
theorem inner_scaled (x w : Fin 512 → EReal) (hx : ∀ d, ∃ r : ℝ, x d = (r : EReal))
    (hw : ∀ d, ∃ r : ℝ, w d = (r : EReal)) :
    ∑ d : Fin 512, (unitMul x d * invT) * unitMul w d
      = Ideal.div (∑ d : Fin 512, unitDiv x d * unitDiv w d) tWord := by
  choose r hr using hx
  choose s hs using hw
  obtain rfl : x = fun e => (r e : EReal) := funext hr
  obtain rfl : w = fun e => (s e : EReal) := funext hs
  rw [div_tWord]
  simp only [unitMul_coe, unitDiv_coe, invT, ← EReal.coe_mul]
  rw [← coe_sum, ← coe_sum, ← EReal.coe_mul, Finset.sum_mul]
  congr 1
  exact Finset.sum_congr rfl fun d _ => by ring

/-! ## The positives -/

theorem posTiled_eq_posPlain (A P : Fin 4096 → Fin 512 → EReal) (hA : Real2 A) (hP : Real2 P) :
    posTiled A P = posPlain A P := by
  funext b
  unfold posTiled posPlain
  rw [div_tWord, unitMul_eq_unitDiv _ (hA b), unitMul_eq_unitDiv _ (hP b)]

/-! ## One entry of the similarity table -/

theorem simTiled_eq (A : Fin 4096 → Fin 512 → EReal) (W : Fin 3 → Fin 4096 → Fin 512 → EReal) (hA : Real2 A)
    (hW : Real3 W) (b : Fin 4096) (v : Fin 3) (k : Fin 4096) :
    simTiled A W b ⟨v.val * 4096 + k.val, by have := v.isLt; have := k.isLt; omega⟩
      = Ideal.div (simPlain A W b v k) tWord := by
  have hk : (v.val * 4096 + k.val) % 4096 = k.val := by have := k.isLt; omega
  have hv : (v.val * 4096 + k.val) / 4096 = v.val := by have := k.isLt; omega
  have hrow : keyRow W ⟨v.val * 4096 + k.val, by have := v.isLt; have := k.isLt; omega⟩ = W v k := by
    unfold keyRow
    exact congrArg₂ W (Fin.ext hv) (Fin.ext hk)
  unfold simTiled simPlain
  by_cases hkb : k = b
  · have hc : (v.val * 4096 + k.val) % 4096 = b.val := by rw [hk, hkb]
    rw [if_pos hc, if_pos hkb, fill_div]
  · have hc : ¬ (v.val * 4096 + k.val) % 4096 = b.val := by
      rw [hk]; exact fun h => hkb (Fin.ext h)
    rw [if_neg hc, if_neg hkb, hrow]
    exact inner_scaled _ _ (hA b) (hW v k)

/-! ## The two groupings of the 12288 keys -/

/-- A function on the first 12288 numbers, continued by zero. -/
def padded (F : Fin 12288 → EReal) (n : ℕ) : EReal := if h : n < 12288 then F ⟨n, h⟩ else 0

theorem padded_of_lt (F : Fin 12288 → EReal) (n : ℕ) (h : n < 12288) : padded F n = F ⟨n, h⟩ := dif_pos h

theorem sum_regroup (F : Fin 12288 → EReal) :
    ∑ j : Fin 12, ∑ c : Fin 1024, F ⟨j.val * 1024 + c.val, by have := j.isLt; have := c.isLt; omega⟩
      = ∑ v : Fin 3, ∑ k : Fin 4096, F ⟨v.val * 4096 + k.val, by have := v.isLt; have := k.isLt; omega⟩ := by
  have h1 : ∑ j : Fin 12, ∑ c : Fin 1024, F ⟨j.val * 1024 + c.val, by have := j.isLt; have := c.isLt; omega⟩
      = ∑ j : Fin 12, ∑ c : Fin 1024, padded F (j.val * 1024 + c.val) :=
    Finset.sum_congr rfl fun j _ => Finset.sum_congr rfl fun c _ => (padded_of_lt F _ _).symm
  have h2 : ∑ v : Fin 3, ∑ k : Fin 4096, F ⟨v.val * 4096 + k.val, by have := v.isLt; have := k.isLt; omega⟩
      = ∑ v : Fin 3, ∑ k : Fin 4096, padded F (v.val * 4096 + k.val) :=
    Finset.sum_congr rfl fun v _ => Finset.sum_congr rfl fun k _ => (padded_of_lt F _ _).symm
  rw [h1, h2, TiledSum.sum_tiles 12 1024 (padded F), TiledSum.sum_tiles 3 4096 (padded F)]

/-! ## The negatives, and the loss -/

theorem negTiled_eq_negPlain (A : Fin 4096 → Fin 512 → EReal) (W : Fin 3 → Fin 4096 → Fin 512 → EReal)
    (hA : Real2 A) (hW : Real3 W) : negTiled A W = negPlain A W := by
  funext b
  unfold negTiled negPlain
  refine (sum_regroup fun n => Ideal.exp (simTiled A W b n)).trans ?_
  exact Finset.sum_congr rfl fun v _ => Finset.sum_congr rfl fun k _ => by
    rw [simTiled_eq A W hA hW b v k]

/-- On real inputs the tiled and the plain form of the loss are equal. -/
theorem lossTiled_eq_lossPlain (A P : Fin 4096 → Fin 512 → EReal) (W : Fin 3 → Fin 4096 → Fin 512 → EReal)
    (hA : Real2 A) (hP : Real2 P) (hW : Real3 W) : lossTiled A P W = lossPlain A P W := by
  unfold lossTiled lossPlain
  rw [posTiled_eq_posPlain A P hA hP, negTiled_eq_negPlain A W hA hW]

end Cert.Contrastive

end
-- ==== Proof.Finite.lean ====
/-
  From the precondition to realness. The precondition is the conjunction of three "every |x| < +∞", one per
  argument array. A conjunction of one-bit words that is 1 has every conjunct 1; an "all" (a reduction by "and"
  from 1 into the one scalar index) that is 1 has a 1 at every index; the +∞ pattern denotes the top element;
  and an extended real whose absolute value max(x, -x) lies strictly below the top element is neither infinity,
  so it is a real number.
-/
import proofs.«128369_j16295105921245_2_alg».proof.Pre_finite_inputs
import proofs.«128369_j16295105921245_2_alg».proof.Proof.Spec
import Idealize.ShloMosaic.Lib.ReduceAll
import Idealize.ShloMosaic.Lib.IdealHost
import Idealize.ShloMosaic.Lib.ValueIdx

noncomputable section

namespace Cert.Contrastive

open Idealize.ShloMosaic Idealize.ShloMosaic.ValueIdx Cert.Pre_finite_inputs

/-- The scalar shape has one index. -/
instance subsingleton_scalarIdx : Subsingleton S_.Idx := ⟨fun a b => funext fun d => d.elim0⟩

/-- The f32 pattern of +∞ denotes the top element. -/
theorem ofBits_inf : Ideal.ofBits .f32 0x7F800000#32 = ⊤ := by
  simp [Ideal.ofBits, Ideal.ieee]

/-- An extended real whose absolute value is strictly below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One element of "|a| < +∞" (the +∞ a broadcast scalar constant) being 1 says that element of a is a real. -/
theorem elem_real {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) := by
  rw [cmpf_apply, broadcastInDim_scalar_apply, constant_apply, ofBits_inf] at h
  exact real_of_abs_lt_top (a i) h

variable [Cert.Pre_finite_inputs.Facts]

/-- The precondition holds only of arrays whose every entry is a real. -/
theorem real_of_pre (a0 a1 : FVec Ideal S4096x512 .f32) (a2 : FVec Ideal S3x4096x512 .f32)
    (h : Cert.Pre_finite_inputs.fn (F := Ideal) a0 a1 a2 = fun _ => 1#1) :
    Real2 (fun b d => a0 (ix2 b d)) ∧ Real2 (fun b d => a1 (ix2 b d)) ∧ Real3 (fun v k d => a2 (ix3 v k d)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun b d => ?_, fun b d => ?_, fun v k d => ?_⟩
  · exact elem_real _ a0 (ix2 b d) (Host.reduce_andi_all _ _ _ _ ix0 h0' (ix2 b d))
  · exact elem_real _ a1 (ix2 b d) (Host.reduce_andi_all _ _ _ _ ix0 h1 (ix2 b d))
  · exact elem_real _ a2 (ix3 v k d) (Host.reduce_andi_all _ _ _ _ ix0 h2 (ix3 v k d))

end Cert.Contrastive

end
-- ==== Proof.lean ====
/-
  The kernel computes a contrastive loss by tiles — unit rows by a reciprocal square root, the similarities scaled by 1/T
  before the product, self-pairs filled with NEG/T, the 12288 keys summed 1024 at a time in a running sum — and the reference
  computes it plainly — unit rows by a quotient, the fill NEG and the division by T after the product, the keys summed as
  3 views of 4096. On the extended reals, with the kernel's three folded constants read as the exact 1/T, ε² and NEG/T of
  the reference's own T, ε and NEG, the two are one function of real inputs: normalising by rsqrt(max(s, ε²)) is dividing
  by max(√s, ε); a factor 1/T moves across a finite sum of reals; the two groupings of the keys are one sum. The three
  frames are the pipelined region's frame run (written once for both the word-level and the idealized kernel) and the
  reference's run with its result dropped.
-/
import proofs.«128369_j16295105921245_2_alg».proof.Defs
import proofs.«128369_j16295105921245_2_alg».proof.Proof.Gen.Kernel
import proofs.«128369_j16295105921245_2_alg».proof.Proof.Gen.KernelIdeal
import proofs.«128369_j16295105921245_2_alg».proof.Proof.Gen.ReferenceIdeal
import proofs.«128369_j16295105921245_2_alg».proof.Proof.Gen.Pre_finite_inputs
import proofs.«128369_j16295105921245_2_alg».proof.Proof.Gen.ReferenceIdeal.Run
import proofs.«128369_j16295105921245_2_alg».proof.Proof.WordFrame
import proofs.«128369_j16295105921245_2_alg».proof.Proof.IdealFrame
import proofs.«128369_j16295105921245_2_alg».proof.Proof.IdealValue
import proofs.«128369_j16295105921245_2_alg».proof.Proof.RefPlain
import proofs.«128369_j16295105921245_2_alg».proof.Proof.Bridge
import proofs.«128369_j16295105921245_2_alg».proof.Proof.Finite
import Idealize.ShloMosaic.PureOps.IdealRules
import Idealize.ShloMosaic.Adequacy
import Idealize.ShloMosaic.Init

noncomputable section

namespace Cert.Proof

open Idealize.ShloMosaic Idealize.SL.Sem

/-- The word-level kernel's frame. -/
theorem frame_kernel : Cert.frame_Kernel := fun m ρ _ => Cert.Kernel.Body.frame (F := Bits) m ρ
/-- The idealized kernel's frame. -/
theorem frame_ideal : Cert.frame_KernelIdeal := fun m ρ _ => Cert.KernelIdeal.Body.frame (F := Ideal) m ρ
/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The six named constants: each printed word denotes, on the extended reals, the rational the table gives its name. -/
theorem preserves : Cert.preserves_Kernel_KernelIdeal :=
  ⟨IdealRules.named_const.statement Cert.KernelIdeal.κ "eps_norm_sq" .f32 0x179ABE15#32 ((5316911940649 / 5316911983139663491615228241121378304 : ℝ) : EReal) rfl,
   IdealRules.named_const.statement Cert.KernelIdeal.κ "eps_norm_sq" .f32 0x179ABE15#32 ((5316911940649 / 5316911983139663491615228241121378304 : ℝ) : EReal) rfl,
   IdealRules.named_const.statement Cert.KernelIdeal.κ "inv_temperature" .f32 0x40A00000#32 ((67108864 / 13421773 : ℝ) : EReal) rfl,
   IdealRules.named_const.statement Cert.KernelIdeal.κ "inv_temperature" .f32 0x40A00000#32 ((67108864 / 13421773 : ℝ) : EReal) rfl,
   IdealRules.named_const.statement Cert.KernelIdeal.κ "eps_norm_sq" .f32 0x179ABE15#32 ((5316911940649 / 5316911983139663491615228241121378304 : ℝ) : EReal) rfl,
   IdealRules.named_const.statement Cert.KernelIdeal.κ "neg_fill_scaled" .f32 0xCF9502F9#32 ((-67108864000000000 / 13421773 : ℝ) : EReal) rfl⟩

/-- From memories that agree on the arguments both programs end, with equal results: the kernel's run leaves the tiled form
    of the loss of its arguments, the reference's the plain form of the same arrays, and on real inputs — which the
    precondition gives — the two forms are one number. -/
theorem algebraic : Cert.algebraic_KernelIdeal_ReferenceIdeal := by
  intro m ρ m' ρ' hpre hagree
  refine ⟨fun c => fun _ => Cert.Contrastive.lossTiled (Cert.KernelIdeal.Body.anchors m c) (Cert.KernelIdeal.Body.positives m c)
      (Cert.KernelIdeal.Body.views m c), Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  obtain ⟨hA, hP, hW⟩ := Cert.Contrastive.real_of_pre _ _ _ (hpre c)
  rw [Cert.ReferenceIdeal.Read.val_main_v48_eq, Cert.Contrastive.Reference.ref_is_plain, (hagree c).1, (hagree c).2.1, (hagree c).2.2]
  beta_reduce
  rw [Cert.KernelIdeal.Body.anchors_eq, Cert.KernelIdeal.Body.positives_eq]
  funext _
  exact (Cert.Contrastive.lossTiled_eq_lossPlain _ _ _ hA hP hW).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
